-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v0_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v69) = v0 c
          ∧ r.2.mem ((c.tc : Thread Cert.ReferenceIdeal.nD Cert.ReferenceIdeal.τ).loc Cert.ReferenceIdeal.main_v70) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x128x32 : Shape := ⟨3, ![8, 128, 32]⟩
abbrev S_ : Shape := ⟨0, ![]⟩

class Facts : Prop where
  bcast_S_S8x128x32 : S_.BroadcastsInDim S8x128x32 (![] : Fin 0 → Fin S8x128x32.rank)
  reducesTo_S8x128x32_S_d0_1_2 : S8x128x32.ReducesTo [0, 1, 2] S_
  h_S_ : 0 < S_.numel

variable [Facts]

def fn_part1 {F : FTy → Type} [FloatOps F] (main_arg4 : FVec F S8x128x32 .f32) (main_arg5 : FVec F S8x128x32 .f32) (main_v13 : IVec S_ 1) (main_v16 : IVec S8x128x32 1) : IVec S_ 1 :=
  let main_c_5 : IVec S_ 1 := constantI S_ 1 1#1
  let main_v17 : IVec S_ 1 := (fun x v => Host.reduce IntOp.andi x v reducesTo_S8x128x32_S_d0_1_2 h_S_) main_v16 main_c_5
  let main_v18 : IVec S_ 1 := andi main_v13 main_v17
  let main_v19 : FVec F S8x128x32 .f32 := Host.absf main_arg4
  let main_cst_6 : FVec F S_ .f32 := constant S_ .f32 0x7F800000#32
  let main_v20 : FVec F S8x128x32 .f32 := broadcastInDim S8x128x32 ![] bcast_S_S8x128x32 main_cst_6
  let main_v21 : IVec S8x128x32 1 := cmpf .olt main_v19 main_v20
  let main_c_7 : IVec S_ 1 := constantI S_ 1 1#1
  let main_v22 : IVec S_ 1 := (fun x v => Host.reduce IntOp.andi x v reducesTo_S8x128x32_S_d0_1_2 h_S_) main_v21 main_c_7
  let main_v23 : IVec S_ 1 := andi main_v18 main_v22
  let main_v24 : FVec F S8x128x32 .f32 := Host.absf main_arg5
  let main_cst_8 : FVec F S_ .f32 := constant S_ .f32 0x7F800000#32
  let main_v25 : FVec F S8x128x32 .f32 := broadcastInDim S8x128x32 ![] bcast_S_S8x128x32 main_cst_8
  let main_v26 : IVec S8x128x32 1 := cmpf .olt main_v24 main_v25
  let main_c_9 : IVec S_ 1 := constantI S_ 1 1#1
  let main_v27 : IVec S_ 1 := (fun x v => Host.reduce IntOp.andi x v reducesTo_S8x128x32_S_d0_1_2 h_S_) main_v26 main_c_9
  let main_v28 : IVec S_ 1 := andi main_v23 main_v27
  main_v28

def fn {F : FTy → Type} [FloatOps F] (main_arg0 : FVec F S8x128x32 .f32) (main_arg1 : FVec F S8x128x32 .f32) (main_arg2 : FVec F S8x128x32 .f32) (main_arg3 : FVec F S8x128x32 .f32) (main_arg4 : FVec F S8x128x32 .f32) (main_arg5 : FVec F S8x128x32 .f32) : IVec S_ 1 :=
  let main_v0 : FVec F S8x128x32 .f32 := Host.absf main_arg0
  let main_cst : FVec F S_ .f32 := constant S_ .f32 0x7F800000#32
  let main_v1 : FVec F S8x128x32 .f32 := broadcastInDim S8x128x32 ![] bcast_S_S8x128x32 main_cst
  let main_v2 : IVec S8x128x32 1 := cmpf .olt main_v0 main_v1
  let main_c : IVec S_ 1 := constantI S_ 1 1#1
  let main_v3 : IVec S_ 1 := (fun x v => Host.reduce IntOp.andi x v reducesTo_S8x128x32_S_d0_1_2 h_S_) main_v2 main_c
  let main_v4 : FVec F S8x128x32 .f32 := Host.absf main_arg1
  let main_cst_0 : FVec F S_ .f32 := constant S_ .f32 0x7F800000#32
  let main_v5 : FVec F S8x128x32 .f32 := broadcastInDim S8x128x32 ![] bcast_S_S8x128x32 main_cst_0
  let main_v6 : IVec S8x128x32 1 := cmpf .olt main_v4 main_v5
  let main_c_1 : IVec S_ 1 := constantI S_ 1 1#1
  let main_v7 : IVec S_ 1 := (fun x v => Host.reduce IntOp.andi x v reducesTo_S8x128x32_S_d0_1_2 h_S_) main_v6 main_c_1
  let main_v8 : IVec S_ 1 := andi main_v3 main_v7
  let main_v9 : FVec F S8x128x32 .f32 := Host.absf main_arg2
  let main_cst_2 : FVec F S_ .f32 := constant S_ .f32 0x7F800000#32
  let main_v10 : FVec F S8x128x32 .f32 := broadcastInDim S8x128x32 ![] bcast_S_S8x128x32 main_cst_2
  let main_v11 : IVec S8x128x32 1 := cmpf .olt main_v9 main_v10
  let main_c_3 : IVec S_ 1 := constantI S_ 1 1#1
  let main_v12 : IVec S_ 1 := (fun x v => Host.reduce IntOp.andi x v reducesTo_S8x128x32_S_d0_1_2 h_S_) main_v11 main_c_3
  let main_v13 : IVec S_ 1 := andi main_v8 main_v12
  let main_v14 : FVec F S8x128x32 .f32 := Host.absf main_arg3
  let main_cst_4 : FVec F S_ .f32 := constant S_ .f32 0x7F800000#32
  let main_v15 : FVec F S8x128x32 .f32 := broadcastInDim S8x128x32 ![] bcast_S_S8x128x32 main_cst_4
  let main_v16 : IVec S8x128x32 1 := cmpf .olt main_v14 main_v15
  fn_part1 (F := F) main_arg4 main_arg5 main_v13 main_v16
-- ==== Kernel.lean ====
abbrev S8x128x32 : Shape := ⟨3, ![8, 128, 32]⟩
abbrev S8x128x32768 : Shape := ⟨3, ![8, 128, 32768]⟩
abbrev S1x32x32 : Shape := ⟨3, ![1, 32, 32]⟩
abbrev S1x32x32768 : Shape := ⟨3, ![1, 32, 32768]⟩
abbrev S1x32x32x1 : Shape := ⟨4, ![1, 32, 32, 1]⟩
abbrev S1x32x1x32 : Shape := ⟨4, ![1, 32, 1, 32]⟩
abbrev S1x32x32x32 : Shape := ⟨4, ![1, 32, 32, 32]⟩
abbrev S1x32x1024 : Shape := ⟨3, ![1, 32, 1024]⟩

abbrev nBuf : Space → Nat
  | .hbm => 8
  | .vmem => 16
  | .smem => 0
  | _ => 0

abbrev bufTy : (tb : Table) → Fin (tcTables nBuf tb) → BufTy
  | .hbm, ⟨0, _⟩ => ⟨S8x128x32, .f32⟩
  | .hbm, ⟨1, _⟩ => ⟨S8x128x32, .f32⟩
  | .hbm, ⟨2, _⟩ => ⟨S8x128x32, .f32⟩
  | .hbm, ⟨3, _⟩ => ⟨S8x128x32, .f32⟩
  | .hbm, ⟨4, _⟩ => ⟨S8x128x32, .f32⟩
  | .hbm, ⟨5, _⟩ => ⟨S8x128x32, .f32⟩
  | .hbm, ⟨6, _⟩ => ⟨S8x128x32768, .f32⟩
  | .hbm, ⟨7, _⟩ => ⟨S8x128x32768, .f32⟩
  | .local _ .vmem, ⟨0, _⟩ => ⟨S1x32x32, .f32⟩
  | .local _ .vmem, ⟨1, _⟩ => ⟨S1x32x32, .f32⟩
  | .local _ .vmem, ⟨2, _⟩ => ⟨S1x32x32, .f32⟩
  | .local _ .vmem, ⟨3, _⟩ => ⟨S1x32x32, .f32⟩
  | .local _ .vmem, ⟨4, _⟩ => ⟨S1x32x32, .f32⟩
  | .local _ .vmem, ⟨5, _⟩ => ⟨S1x32x32, .f32⟩
  | .local _ .vmem, ⟨6, _⟩ => ⟨S1x32x32, .f32⟩
  | .local _ .vmem, ⟨7, _⟩ => ⟨S1x32x32, .f32⟩
  | .local _ .vmem, ⟨8, _⟩ => ⟨S1x32x32, .f32⟩
  | .local _ .vmem, ⟨9, _⟩ => ⟨S1x32x32, .f32⟩
  | .local _ .vmem, ⟨10, _⟩ => ⟨S1x32x32, .f32⟩
  | .local _ .vmem, ⟨11, _⟩ => ⟨S1x32x32, .f32⟩
  | .local _ .vmem, ⟨12, _⟩ => ⟨S1x32x32768, .f32⟩
  | .local _ .vmem, ⟨13, _⟩ => ⟨S1x32x32768, .f32⟩
  | .local _ .vmem, ⟨14, _⟩ => ⟨S1x32x32768, .f32⟩
  | .local _ .vmem, ⟨15, _⟩ => ⟨S1x32x32768, .f32⟩
  | _, _ => ⟨S8x128x32, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0_0 : Ref sig .tc := ⟨.hbm, 6, rfl⟩
abbrev main_v0_1 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨2, ![8, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x32x32 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x32x32 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x32x32 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x32x32 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x32x32 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x32x32 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x32x32768 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x32x32768 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

class Facts₀ : Prop where
  inb_S1x32x32_S1x32x32_0_0_0 : ∀ a, (![0, 0, 0] : Fin 3 → Nat) a + S1x32x32.size a ≤ S1x32x32.size a
  h_S1x32x32 : 0 < S1x32x32.numel
  shapeCasts_S1x32x32_S1x32x32x1 : S1x32x32.ShapeCasts S1x32x32x1
  shapeCasts_S1x32x32_S1x32x1x32 : S1x32x32.ShapeCasts S1x32x1x32
  broadcasts_S1x32x32x1_S1x32x32x32 : S1x32x32x1.Broadcasts S1x32x32x32
  broadcasts_S1x32x1x32_S1x32x32x32 : S1x32x1x32.Broadcasts S1x32x32x32
  slices_S1x32x32x32_o0_0_0_0_S1x32x1x32 : S1x32x32x32.Slices ![0, 0, 0, 0] S1x32x1x32
  shapeCasts_S1x32x1x32_S1x32x32 : S1x32x1x32.ShapeCasts S1x32x32
  shapeCasts_S1x32x32x32_S1x32x1024 : S1x32x32x32.ShapeCasts S1x32x1024
  inb_S1x32x32768_S1x32x1024_0_0_0 : ∀ a, (![0, 0, 0] : Fin 3 → Nat) a + S1x32x1024.size a ≤ S1x32x32768.size a
  h_S1x32x1024 : 0 < S1x32x1024.numel
  slices_S1x32x32x32_o0_0_1_0_S1x32x1x32 : S1x32x32x32.Slices ![0, 0, 1, 0] S1x32x1x32
  inb_S1x32x32768_S1x32x1024_0_0_1024 : ∀ a, (![0, 0, 1024] : Fin 3 → Nat) a + S1x32x1024.size a ≤ S1x32x32768.size a
  slices_S1x32x32x32_o0_0_2_0_S1x32x1x32 : S1x32x32x32.Slices ![0, 0, 2, 0] S1x32x1x32
  inb_S1x32x32768_S1x32x1024_0_0_2048 : ∀ a, (![0, 0, 2048] : Fin 3 → Nat) a + S1x32x1024.size a ≤ S1x32x32768.size a
  slices_S1x32x32x32_o0_0_3_0_S1x32x1x32 : S1x32x32x32.Slices ![0, 0, 3, 0] S1x32x1x32
  inb_S1x32x32768_S1x32x1024_0_0_3072 : ∀ a, (![0, 0, 3072] : Fin 3 → Nat) a + S1x32x1024.size a ≤ S1x32x32768.size a
  slices_S1x32x32x32_o0_0_4_0_S1x32x1x32 : S1x32x32x32.Slices ![0, 0, 4, 0] S1x32x1x32
  inb_S1x32x32768_S1x32x1024_0_0_4096 : ∀ a, (![0, 0, 4096] : Fin 3 → Nat) a + S1x32x1024.size a ≤ S1x32x32768.size a
  slices_S1x32x32x32_o0_0_5_0_S1x32x1x32 : S1x32x32x32.Slices ![0, 0, 5, 0] S1x32x1x32
  inb_S1x32x32768_S1x32x1024_0_0_5120 : ∀ a, (![0, 0, 5120] : Fin 3 → Nat) a + S1x32x1024.size a ≤ S1x32x32768.size a
  slices_S1x32x32x32_o0_0_6_0_S1x32x1x32 : S1x32x32x32.Slices ![0, 0, 6, 0] S1x32x1x32
  inb_S1x32x32768_S1x32x1024_0_0_6144 : ∀ a, (![0, 0, 6144] : Fin 3 → Nat) a + S1x32x1024.size a ≤ S1x32x32768.size a
  slices_S1x32x32x32_o0_0_7_0_S1x32x1x32 : S1x32x32x32.Slices ![0, 0, 7, 0] S1x32x1x32
  inb_S1x32x32768_S1x32x1024_0_0_7168 : ∀ a, (![0, 0, 7168] : Fin 3 → Nat) a + S1x32x1024.size a ≤ S1x32x32768.size a
  slices_S1x32x32x32_o0_0_8_0_S1x32x1x32 : S1x32x32x32.Slices ![0, 0, 8, 0] S1x32x1x32
  inb_S1x32x32768_S1x32x1024_0_0_8192 : ∀ a, (![0, 0, 8192] : Fin 3 → Nat) a + S1x32x1024.size a ≤ S1x32x32768.size a
  slices_S1x32x32x32_o0_0_9_0_S1x32x1x32 : S1x32x32x32.Slices ![0, 0, 9, 0] S1x32x1x32
  inb_S1x32x32768_S1x32x1024_0_0_9216 : ∀ a, (![0, 0, 9216] : Fin 3 → Nat) a + S1x32x1024.size a ≤ S1x32x32768.size a
  slices_S1x32x32x32_o0_0_10_0_S1x32x1x32 : S1x32x32x32.Slices ![0, 0, 10, 0] S1x32x1x32
  inb_S1x32x32768_S1x32x1024_0_0_10240 : ∀ a, (![0, 0, 10240] : Fin 3 → Nat) a + S1x32x1024.size a ≤ S1x32x32768.size a
  slices_S1x32x32x32_o0_0_11_0_S1x32x1x32 : S1x32x32x32.Slices ![0, 0, 11, 0] S1x32x1x32
  inb_S1x32x32768_S1x32x1024_0_0_11264 : ∀ a, (![0, 0, 11264] : Fin 3 → Nat) a + S1x32x1024.size a ≤ S1x32x32768.size a
  slices_S1x32x32x32_o0_0_12_0_S1x32x1x32 : S1x32x32x32.Slices ![0, 0, 12, 0] S1x32x1x32
  inb_S1x32x32768_S1x32x1024_0_0_12288 : ∀ a, (![0, 0, 12288] : Fin 3 → Nat) a + S1x32x1024.size a ≤ S1x32x32768.size a
  slices_S1x32x32x32_o0_0_13_0_S1x32x1x32 : S1x32x32x32.Slices ![0, 0, 13, 0] S1x32x1x32
  inb_S1x32x32768_S1x32x1024_0_0_13312 : ∀ a, (![0, 0, 13312] : Fin 3 → Nat) a + S1x32x1024.size a ≤ S1x32x32768.size a
  slices_S1x32x32x32_o0_0_14_0_S1x32x1x32 : S1x32x32x32.Slices ![0, 0, 14, 0] S1x32x1x32
  inb_S1x32x32768_S1x32x1024_0_0_14336 : ∀ a, (![0, 0, 14336] : Fin 3 → Nat) a + S1x32x1024.size a ≤ S1x32x32768.size a
  slices_S1x32x32x32_o0_0_15_0_S1x32x1x32 : S1x32x32x32.Slices ![0, 0, 15, 0] S1x32x1x32
  inb_S1x32x32768_S1x32x1024_0_0_15360 : ∀ a, (![0, 0, 15360] : Fin 3 → Nat) a + S1x32x1024.size a ≤ S1x32x32768.size a
  slices_S1x32x32x32_o0_0_16_0_S1x32x1x32 : S1x32x32x32.Slices ![0, 0, 16, 0] S1x32x1x32
  inb_S1x32x32768_S1x32x1024_0_0_16384 : ∀ a, (![0, 0, 16384] : Fin 3 → Nat) a + S1x32x1024.size a ≤ S1x32x32768.size a
  slices_S1x32x32x32_o0_0_17_0_S1x32x1x32 : S1x32x32x32.Slices ![0, 0, 17, 0] S1x32x1x32
  inb_S1x32x32768_S1x32x1024_0_0_17408 : ∀ a, (![0, 0, 17408] : Fin 3 → Nat) a + S1x32x1024.size a ≤ S1x32x32768.size a
  slices_S1x32x32x32_o0_0_18_0_S1x32x1x32 : S1x32x32x32.Slices ![0, 0, 18, 0] S1x32x1x32
  inb_S1x32x32768_S1x32x1024_0_0_18432 : ∀ a, (![0, 0, 18432] : Fin 3 → Nat) a + S1x32x1024.size a ≤ S1x32x32768.size a
  slices_S1x32x32x32_o0_0_19_0_S1x32x1x32 : S1x32x32x32.Slices ![0, 0, 19, 0] S1x32x1x32
  inb_S1x32x32768_S1x32x1024_0_0_19456 : ∀ a, (![0, 0, 19456] : Fin 3 → Nat) a + S1x32x1024.size a ≤ S1x32x32768.size a
  slices_S1x32x32x32_o0_0_20_0_S1x32x1x32 : S1x32x32x32.Slices ![0, 0, 20, 0] S1x32x1x32
  inb_S1x32x32768_S1x32x1024_0_0_20480 : ∀ a, (![0, 0, 20480] : Fin 3 → Nat) a + S1x32x1024.size a ≤ S1x32x32768.size a
  slices_S1x32x32x32_o0_0_21_0_S1x32x1x32 : S1x32x32x32.Slices ![0, 0, 21, 0] S1x32x1x32
  inb_S1x32x32768_S1x32x1024_0_0_21504 : ∀ a, (![0, 0, 21504] : Fin 3 → Nat) a + S1x32x1024.size a ≤ S1x32x32768.size a
  slices_S1x32x32x32_o0_0_22_0_S1x32x1x32 : S1x32x32x32.Slices ![0, 0, 22, 0] S1x32x1x32
  inb_S1x32x32768_S1x32x1024_0_0_22528 : ∀ a, (![0, 0, 22528] : Fin 3 → Nat) a + S1x32x1024.size a ≤ S1x32x32768.size a
  slices_S1x32x32x32_o0_0_23_0_S1x32x1x32 : S1x32x32x32.Slices ![0, 0, 23, 0] S1x32x1x32
  inb_S1x32x32768_S1x32x1024_0_0_23552 : ∀ a, (![0, 0, 23552] : Fin 3 → Nat) a + S1x32x1024.size a ≤ S1x32x32768.size a
  slices_S1x32x32x32_o0_0_24_0_S1x32x1x32 : S1x32x32x32.Slices ![0, 0, 24, 0] S1x32x1x32
  inb_S1x32x32768_S1x32x1024_0_0_24576 : ∀ a, (![0, 0, 24576] : Fin 3 → Nat) a + S1x32x1024.size a ≤ S1x32x32768.size a
  slices_S1x32x32x32_o0_0_25_0_S1x32x1x32 : S1x32x32x32.Slices ![0, 0, 25, 0] S1x32x1x32
  inb_S1x32x32768_S1x32x1024_0_0_25600 : ∀ a, (![0, 0, 25600] : Fin 3 → Nat) a + S1x32x1024.size a ≤ S1x32x32768.size a
  slices_S1x32x32x32_o0_0_26_0_S1x32x1x32 : S1x32x32x32.Slices ![0, 0, 26, 0] S1x32x1x32
  inb_S1x32x32768_S1x32x1024_0_0_26624 : ∀ a, (![0, 0, 26624] : Fin 3 → Nat) a + S1x32x1024.size a ≤ S1x32x32768.size a
  slices_S1x32x32x32_o0_0_27_0_S1x32x1x32 : S1x32x32x32.Slices ![0, 0, 27, 0] S1x32x1x32
  inb_S1x32x32768_S1x32x1024_0_0_27648 : ∀ a, (![0, 0, 27648] : Fin 3 → Nat) a + S1x32x1024.size a ≤ S1x32x32768.size a
  slices_S1x32x32x32_o0_0_28_0_S1x32x1x32 : S1x32x32x32.Slices ![0, 0, 28, 0] S1x32x1x32
  inb_S1x32x32768_S1x32x1024_0_0_28672 : ∀ a, (![0, 0, 28672] : Fin 3 → Nat) a + S1x32x1024.size a ≤ S1x32x32768.size a
  slices_S1x32x32x32_o0_0_29_0_S1x32x1x32 : S1x32x32x32.Slices ![0, 0, 29, 0] S1x32x1x32
  inb_S1x32x32768_S1x32x1024_0_0_29696 : ∀ a, (![0, 0, 29696] : Fin 3 → Nat) a + S1x32x1024.size a ≤ S1x32x32768.size a
  slices_S1x32x32x32_o0_0_30_0_S1x32x1x32 : S1x32x32x32.Slices ![0, 0, 30, 0] S1x32x1x32
  inb_S1x32x32768_S1x32x1024_0_0_30720 : ∀ a, (![0, 0, 30720] : Fin 3 → Nat) a + S1x32x1024.size a ≤ S1x32x32768.size a
  slices_S1x32x32x32_o0_0_31_0_S1x32x1x32 : S1x32x32x32.Slices ![0, 0, 31, 0] S1x32x1x32
  inb_S1x32x32768_S1x32x1024_0_0_31744 : ∀ a, (![0, 0, 31744] : Fin 3 → Nat) a + S1x32x1024.size a ≤ S1x32x32768.size a
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x32x32.size a ≤ S8x128x32.size a
  hwx0_0 : ∀ i : grid0.Coords, EltTy.bits .f32 = 32 ∨ (Rect.block (s := S8x128x32) S1x32x32.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x32x32.size a ≤ S8x128x32.size a
  hwx0_1 : ∀ i : grid0.Coords, EltTy.bits .f32 = 32 ∨ (Rect.block (s := S8x128x32) S1x32x32.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x32x32.size a ≤ S8x128x32.size a
  hwx0_2 : ∀ i : grid0.Coords, EltTy.bits .f32 = 32 ∨ (Rect.block (s := S8x128x32) S1x32x32.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x32x32.size a ≤ S8x128x32.size a
  hwx0_3 : ∀ i : grid0.Coords, EltTy.bits .f32 = 32 ∨ (Rect.block (s := S8x128x32) S1x32x32.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x32x32.size a ≤ S8x128x32.size a
  hwx0_4 : ∀ i : grid0.Coords, EltTy.bits .f32 = 32 ∨ (Rect.block (s := S8x128x32) S1x32x32.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1x32x32.size a ≤ S8x128x32.size a
  hwx0_5 : ∀ i : grid0.Coords, EltTy.bits .f32 = 32 ∨ (Rect.block (s := S8x128x32) S1x32x32.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S1x32x32768.size a ≤ S8x128x32768.size a
  hwx0_6 : ∀ i : grid0.Coords, EltTy.bits .f32 = 32 ∨ (Rect.block (s := S8x128x32768) S1x32x32768.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S1x32x32768.size a ≤ S8x128x32768.size a
  hwx0_7 : ∀ i : grid0.Coords, EltTy.bits .f32 = 32 ∨ (Rect.block (s := S8x128x32768) S1x32x32768.size (cc0_transform_7 i) (hinb0_7 i)).WholeWords (EltTy.packing .f32)

variable [Facts₀]

abbrev win0_0 : Pipeline.Window sig grid0 :=
  Pipeline.Window.ofSpec (Memref.whole main_arg0) S1x32x32.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1x32x32.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S1x32x32.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S1x32x32.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S1x32x32.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_arg5) S1x32x32.size cc0_transform_5 reads0_5 false false 2 stage0_5 sem0_5
    hrank0 hreads0_5 hinb0_5 nbuf0_5 (Memref.isWhole_whole _) hwx0_5 hstage0_5

abbrev win0_6 : Pipeline.Window sig grid0 :=
  Pipeline.Window.ofSpec (Memref.whole main_v0_0) S1x32x32768.size cc0_transform_6 reads0_6 true false 2 stage0_6 sem0_6
    hrank0 hreads0_6 hinb0_6 nbuf0_6 (Memref.isWhole_whole _) hwx0_6 hstage0_6

abbrev win0_7 : Pipeline.Window sig grid0 :=
  Pipeline.Window.ofSpec (Memref.whole main_v0_1) S1x32x32768.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

class Facts : Prop extends Facts₀ where

variable [Facts]
-- ==== ReferenceIdeal.lean ====
abbrev S8x128x32 : Shape := ⟨3, ![8, 128, 32]⟩
abbrev S_ : Shape := ⟨0, ![]⟩
abbrev S8x128x1 : Shape := ⟨3, ![8, 128, 1]⟩
abbrev S8x128x1x1 : Shape := ⟨4, ![8, 128, 1, 1]⟩
abbrev S8x128x1x32 : Shape := ⟨4, ![8, 128, 1, 32]⟩
abbrev S8x128x32x1 : Shape := ⟨4, ![8, 128, 32, 1]⟩
abbrev S8x128x32x32 : Shape := ⟨4, ![8, 128, 32, 32]⟩
abbrev S8x128x1024 : Shape := ⟨3, ![8, 128, 1024]⟩
abbrev S8x128x1024x1 : Shape := ⟨4, ![8, 128, 1024, 1]⟩
abbrev S8x128x1024x32 : Shape := ⟨4, ![8, 128, 1024, 32]⟩
abbrev S8x128x32768 : Shape := ⟨3, ![8, 128, 32768]⟩

abbrev nBuf : Space → Nat
  | .hbm => 80
  | .vmem => 0
  | .smem => 0
  | _ => 0

abbrev bufTy : (tb : Table) → Fin (tcTables nBuf tb) → BufTy
  | .hbm, ⟨0, _⟩ => ⟨S8x128x32, .f32⟩
  | .hbm, ⟨1, _⟩ => ⟨S8x128x32, .f32⟩
  | .hbm, ⟨2, _⟩ => ⟨S8x128x32, .f32⟩
  | .hbm, ⟨3, _⟩ => ⟨S8x128x32, .f32⟩
  | .hbm, ⟨4, _⟩ => ⟨S8x128x32, .f32⟩
  | .hbm, ⟨5, _⟩ => ⟨S8x128x32, .f32⟩
  | .hbm, ⟨6, _⟩ => ⟨S_, .f32⟩
  | .hbm, ⟨7, _⟩ => ⟨S8x128x1, .f32⟩
  | .hbm, ⟨8, _⟩ => ⟨S_, .f32⟩
  | .hbm, ⟨9, _⟩ => ⟨S8x128x1, .f32⟩
  | .hbm, ⟨10, _⟩ => ⟨S_, .f32⟩
  | .hbm, ⟨11, _⟩ => ⟨S8x128x1, .f32⟩
  | .hbm, ⟨12, _⟩ => ⟨S8x128x1x1, .f32⟩
  | .hbm, ⟨13, _⟩ => ⟨S8x128x1x32, .f32⟩
  | .hbm, ⟨14, _⟩ => ⟨S8x128x1x32, .f32⟩
  | .hbm, ⟨15, _⟩ => ⟨S8x128x1x32, .f32⟩
  | .hbm, ⟨16, _⟩ => ⟨S8x128x1x1, .f32⟩
  | .hbm, ⟨17, _⟩ => ⟨S8x128x1x32, .f32⟩
  | .hbm, ⟨18, _⟩ => ⟨S8x128x1x32, .f32⟩
  | .hbm, ⟨19, _⟩ => ⟨S8x128x1x32, .f32⟩
  | .hbm, ⟨20, _⟩ => ⟨S8x128x1x32, .f32⟩
  | .hbm, ⟨21, _⟩ => ⟨S8x128x1x1, .f32⟩
  | .hbm, ⟨22, _⟩ => ⟨S8x128x1x32, .f32⟩
  | .hbm, ⟨23, _⟩ => ⟨S8x128x1x32, .f32⟩
  | .hbm, ⟨24, _⟩ => ⟨S8x128x1x32, .f32⟩
  | .hbm, ⟨25, _⟩ => ⟨S8x128x1x1, .f32⟩
  | .hbm, ⟨26, _⟩ => ⟨S8x128x1x32, .f32⟩
  | .hbm, ⟨27, _⟩ => ⟨S8x128x1x32, .f32⟩
  | .hbm, ⟨28, _⟩ => ⟨S8x128x1x32, .f32⟩
  | .hbm, ⟨29, _⟩ => ⟨S8x128x1x32, .f32⟩
  | .hbm, ⟨30, _⟩ => ⟨S8x128x32, .f32⟩
  | .hbm, ⟨31, _⟩ => ⟨S8x128x32, .f32⟩
  | .hbm, ⟨32, _⟩ => ⟨S8x128x32x1, .f32⟩
  | .hbm, ⟨33, _⟩ => ⟨S8x128x1x32, .f32⟩
  | .hbm, ⟨34, _⟩ => ⟨S8x128x32x32, .f32⟩
  | .hbm, ⟨35, _⟩ => ⟨S8x128x32x32, .f32⟩
  | .hbm, ⟨36, _⟩ => ⟨S8x128x32x32, .f32⟩
  | .hbm, ⟨37, _⟩ => ⟨S8x128x32x1, .f32⟩
  | .hbm, ⟨38, _⟩ => ⟨S8x128x1x32, .f32⟩
  | .hbm, ⟨39, _⟩ => ⟨S8x128x32x32, .f32⟩
  | .hbm, ⟨40, _⟩ => ⟨S8x128x32x32, .f32⟩
  | .hbm, ⟨41, _⟩ => ⟨S8x128x32x32, .f32⟩
  | .hbm, ⟨42, _⟩ => ⟨S8x128x32x32, .f32⟩
  | .hbm, ⟨43, _⟩ => ⟨S8x128x32x1, .f32⟩
  | .hbm, ⟨44, _⟩ => ⟨S8x128x1x32, .f32⟩
  | .hbm, ⟨45, _⟩ => ⟨S8x128x32x32, .f32⟩
  | .hbm, ⟨46, _⟩ => ⟨S8x128x32x32, .f32⟩
  | .hbm, ⟨47, _⟩ => ⟨S8x128x32x32, .f32⟩
  | .hbm, ⟨48, _⟩ => ⟨S8x128x32x1, .f32⟩
  | .hbm, ⟨49, _⟩ => ⟨S8x128x1x32, .f32⟩
  | .hbm, ⟨50, _⟩ => ⟨S8x128x32x32, .f32⟩
  | .hbm, ⟨51, _⟩ => ⟨S8x128x32x32, .f32⟩
  | .hbm, ⟨52, _⟩ => ⟨S8x128x32x32, .f32⟩
  | .hbm, ⟨53, _⟩ => ⟨S8x128x32x32, .f32⟩
  | .hbm, ⟨54, _⟩ => ⟨S8x128x1024, .f32⟩
  | .hbm, ⟨55, _⟩ => ⟨S8x128x1024, .f32⟩
  | .hbm, ⟨56, _⟩ => ⟨S8x128x1024x1, .f32⟩
  | .hbm, ⟨57, _⟩ => ⟨S8x128x1x32, .f32⟩
  | .hbm, ⟨58, _⟩ => ⟨S8x128x1024x32, .f32⟩
  | .hbm, ⟨59, _⟩ => ⟨S8x128x1024x32, .f32⟩
  | .hbm, ⟨60, _⟩ => ⟨S8x128x1024x32, .f32⟩
  | .hbm, ⟨61, _⟩ => ⟨S8x128x1024x1, .f32⟩
  | .hbm, ⟨62, _⟩ => ⟨S8x128x1x32, .f32⟩
  | .hbm, ⟨63, _⟩ => ⟨S8x128x1024x32, .f32⟩
  | .hbm, ⟨64, _⟩ => ⟨S8x128x1024x32, .f32⟩
  | .hbm, ⟨65, _⟩ => ⟨S8x128x1024x32, .f32⟩
  | .hbm, ⟨66, _⟩ => ⟨S8x128x1024x32, .f32⟩
  | .hbm, ⟨67, _⟩ => ⟨S8x128x1024x1, .f32⟩
  | .hbm, ⟨68, _⟩ => ⟨S8x128x1x32, .f32⟩
  | .hbm, ⟨69, _⟩ => ⟨S8x128x1024x32, .f32⟩
  | .hbm, ⟨70, _⟩ => ⟨S8x128x1024x32, .f32⟩
  | .hbm, ⟨71, _⟩ => ⟨S8x128x1024x32, .f32⟩
  | .hbm, ⟨72, _⟩ => ⟨S8x128x1024x1, .f32⟩
  | .hbm, ⟨73, _⟩ => ⟨S8x128x1x32, .f32⟩
  | .hbm, ⟨74, _⟩ => ⟨S8x128x1024x32, .f32⟩
  | .hbm, ⟨75, _⟩ => ⟨S8x128x1024x32, .f32⟩
  | .hbm, ⟨76, _⟩ => ⟨S8x128x1024x32, .f32⟩
  | .hbm, ⟨77, _⟩ => ⟨S8x128x1024x32, .f32⟩
  | .hbm, ⟨78, _⟩ => ⟨S8x128x32768, .f32⟩
  | .hbm, ⟨79, _⟩ => ⟨S8x128x32768, .f32⟩
  | _, _ => ⟨S8x128x32, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_cst : Ref sig .tc := ⟨.hbm, 6, rfl⟩
abbrev main_v0 : Ref sig .tc := ⟨.hbm, 7, rfl⟩
abbrev main_cst_0 : Ref sig .tc := ⟨.hbm, 8, rfl⟩
abbrev main_v1 : Ref sig .tc := ⟨.hbm, 9, rfl⟩
abbrev main_cst_1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩
abbrev main_v35 : Ref sig .tc := ⟨.hbm, 44, rfl⟩
abbrev main_v36 : Ref sig .tc := ⟨.hbm, 45, rfl⟩
abbrev main_v37 : Ref sig .tc := ⟨.hbm, 46, rfl⟩
abbrev main_v38 : Ref sig .tc := ⟨.hbm, 47, rfl⟩
abbrev main_v39 : Ref sig .tc := ⟨.hbm, 48, rfl⟩
abbrev main_v40 : Ref sig .tc := ⟨.hbm, 49, rfl⟩
abbrev main_v41 : Ref sig .tc := ⟨.hbm, 50, rfl⟩
abbrev main_v42 : Ref sig .tc := ⟨.hbm, 51, rfl⟩
abbrev main_v43 : Ref sig .tc := ⟨.hbm, 52, rfl⟩
abbrev main_v44 : Ref sig .tc := ⟨.hbm, 53, rfl⟩
abbrev main_v45 : Ref sig .tc := ⟨.hbm, 54, rfl⟩
abbrev main_v46 : Ref sig .tc := ⟨.hbm, 55, rfl⟩
abbrev main_v47 : Ref sig .tc := ⟨.hbm, 56, rfl⟩
abbrev main_v48 : Ref sig .tc := ⟨.hbm, 57, rfl⟩
abbrev main_v49 : Ref sig .tc := ⟨.hbm, 58, rfl⟩
abbrev main_v50 : Ref sig .tc := ⟨.hbm, 59, rfl⟩
abbrev main_v51 : Ref sig .tc := ⟨.hbm, 60, rfl⟩
abbrev main_v52 : Ref sig .tc := ⟨.hbm, 61, rfl⟩
abbrev main_v53 : Ref sig .tc := ⟨.hbm, 62, rfl⟩
abbrev main_v54 : Ref sig .tc := ⟨.hbm, 63, rfl⟩
abbrev main_v55 : Ref sig .tc := ⟨.hbm, 64, rfl⟩
abbrev main_v56 : Ref sig .tc := ⟨.hbm, 65, rfl⟩
abbrev main_v57 : Ref sig .tc := ⟨.hbm, 66, rfl⟩
abbrev main_v58 : Ref sig .tc := ⟨.hbm, 67, rfl⟩
abbrev main_v59 : Ref sig .tc := ⟨.hbm, 68, rfl⟩
abbrev main_v60 : Ref sig .tc := ⟨.hbm, 69, rfl⟩
abbrev main_v61 : Ref sig .tc := ⟨.hbm, 70, rfl⟩
abbrev main_v62 : Ref sig .tc := ⟨.hbm, 71, rfl⟩
abbrev main_v63 : Ref sig .tc := ⟨.hbm, 72, rfl⟩
abbrev main_v64 : Ref sig .tc := ⟨.hbm, 73, rfl⟩
abbrev main_v65 : Ref sig .tc := ⟨.hbm, 74, rfl⟩
abbrev main_v66 : Ref sig .tc := ⟨.hbm, 75, rfl⟩
abbrev main_v67 : Ref sig .tc := ⟨.hbm, 76, rfl⟩
abbrev main_v68 : Ref sig .tc := ⟨.hbm, 77, rfl⟩
abbrev main_v69 : Ref sig .tc := ⟨.hbm, 78, rfl⟩
abbrev main_v70 : Ref sig .tc := ⟨.hbm, 79, rfl⟩

abbrev nD : Nat := 1
abbrev τ : Topo := Topo.v7x

variable {F : FTy → Type} [FloatOps F]

class Facts₀ : Prop where
  bcast_S_S8x128x1 : S_.BroadcastsInDim S8x128x1 (![] : Fin 0 → Fin S8x128x1.rank)
  bcast_S8x128x1_S8x128x1x1_0_1_2 : S8x128x1.BroadcastsInDim S8x128x1x1 (![0, 1, 2] : Fin 3 → Fin S8x128x1x1.rank)
  bcast_S8x128x32_S8x128x1x32_0_1_3 : S8x128x32.BroadcastsInDim S8x128x1x32 (![0, 1, 3] : Fin 3 → Fin S8x128x1x32.rank)
  bcast_S8x128x1x1_S8x128x1x32_0_1_2_3 : S8x128x1x1.BroadcastsInDim S8x128x1x32 (![0, 1, 2, 3] : Fin 4 → Fin S8x128x1x32.rank)
  shapeCasts_S8x128x1x32_S8x128x32 : S8x128x1x32.ShapeCasts S8x128x32
  bcast_S8x128x32_S8x128x32x1_0_1_2 : S8x128x32.BroadcastsInDim S8x128x32x1 (![0, 1, 2] : Fin 3 → Fin S8x128x32x1.rank)
  bcast_S8x128x32x1_S8x128x32x32_0_1_2_3 : S8x128x32x1.BroadcastsInDim S8x128x32x32 (![0, 1, 2, 3] : Fin 4 → Fin S8x128x32x32.rank)
  bcast_S8x128x1x32_S8x128x32x32_0_1_2_3 : S8x128x1x32.BroadcastsInDim S8x128x32x32 (![0, 1, 2, 3] : Fin 4 → Fin S8x128x32x32.rank)
  shapeCasts_S8x128x32x32_S8x128x1024 : S8x128x32x32.ShapeCasts S8x128x1024
  bcast_S8x128x1024_S8x128x1024x1_0_1_2 : S8x128x1024.BroadcastsInDim S8x128x1024x1 (![0, 1, 2] : Fin 3 → Fin S8x128x1024x1.rank)
  bcast_S8x128x1024x1_S8x128x1024x32_0_1_2_3 : S8x128x1024x1.BroadcastsInDim S8x128x1024x32 (![0, 1, 2, 3] : Fin 4 → Fin S8x128x1024x32.rank)
  bcast_S8x128x1x32_S8x128x1024x32_0_1_2_3 : S8x128x1x32.BroadcastsInDim S8x128x1024x32 (![0, 1, 2, 3] : Fin 4 → Fin S8x128x1024x32.rank)
  shapeCasts_S8x128x1024x32_S8x128x32768 : S8x128x1024x32.ShapeCasts S8x128x32768

variable [Facts₀]

class Facts : Prop extends Facts₀ where

variable [Facts]
-- ==== Proof.Chain.lean ====
/-
  What both programs compute, index by index.

  For every batch entry b < 8 and position s < 128 there are three complex vectors of length 32,
    u = a0 + i·a1,   v = a2 + i·a3,   w = a4 + i·a5,
  and the chain starts from 1 + i and multiplies them in one after the other as outer products, flattening after each:
    z1[p]           = (1 + i) · u[p]      real part a0[p] - a1[p], imaginary part a0[p] + a1[p],
    z2[p·32 + q]    = z1[p] · v[q],
    z3[j·32 + r]    = z2[j] · w[r]        (j < 1024, so the last axis has 32768 entries).
  Real and imaginary parts are kept in separate arrays, and a complex product (x + i·y)(c + i·d) is spelt
  x·c - y·d for the real part and x·d + y·c for the imaginary part.

  Each stage is written over the operations of an arbitrary float type, so it can be read at the extended reals
  and at machine words alike. The position on a flattened axis is split into its slow part (divide by 32) and
  its fast part (remainder mod 32).
-/
import Idealize.ShloMosaic.PureOps.Ideal
import Idealize.ShloMosaic.Lib.ValueIdx

noncomputable section

namespace Cert.Chain

open Idealize.ShloMosaic Idealize.ShloMosaic.ValueIdx

/-- One complex component of an input: 8 batches, 128 positions, 32 entries. -/
abbrev S32 : Shape := ⟨3, ![8, 128, 32]⟩
/-- After the second factor: 32 · 32 entries. -/
abbrev S1024 : Shape := ⟨3, ![8, 128, 1024]⟩
/-- After the third factor: 1024 · 32 entries. -/
abbrev S32768 : Shape := ⟨3, ![8, 128, 32768]⟩

/-- Entry j = p·32 + q of the second stage came from entry p of the first stage: same batch and position. -/
def slow2 (l : S1024.Idx) : S32.Idx :=
  ix3 (l 0) (l 1) ⟨(l 2).val / 32, by have h : (l 2).val < 1024 := (l 2).isLt; omega⟩

/-- … and from entry q of the second factor. -/
def fast2 (l : S1024.Idx) : S32.Idx :=
  ix3 (l 0) (l 1) ⟨(l 2).val % 32, by omega⟩

/-- Entry d = j·32 + r of the third stage came from entry j of the second stage. -/
def slow3 (i : S32768.Idx) : S1024.Idx :=
  ix3 (i 0) (i 1) ⟨(i 2).val / 32, by have h : (i 2).val < 32768 := (i 2).isLt; omega⟩

/-- … and from entry r of the third factor. -/
def fast3 (i : S32768.Idx) : S32.Idx :=
  ix3 (i 0) (i 1) ⟨(i 2).val % 32, by omega⟩

variable {F : FTy → Type} [FloatOps F]

/-- Real part of (1 + i)(a0 + i·a1). -/
def re1 (a0 a1 : S32.Idx → Elt F .f32) (r : S32.Idx) : Elt F .f32 := FloatOps.subf (a0 r) (a1 r)

/-- Imaginary part of (1 + i)(a0 + i·a1). -/
def im1 (a0 a1 : S32.Idx → Elt F .f32) (r : S32.Idx) : Elt F .f32 := FloatOps.addf (a0 r) (a1 r)

/-- Real part of z1[p] · v[q] at j = p·32 + q. -/
def re2 (a0 a1 a2 a3 : S32.Idx → Elt F .f32) (l : S1024.Idx) : Elt F .f32 :=
  FloatOps.subf (FloatOps.mulf (re1 a0 a1 (slow2 l)) (a2 (fast2 l))) (FloatOps.mulf (im1 a0 a1 (slow2 l)) (a3 (fast2 l)))

/-- Imaginary part of z1[p] · v[q] at j = p·32 + q. -/
def im2 (a0 a1 a2 a3 : S32.Idx → Elt F .f32) (l : S1024.Idx) : Elt F .f32 :=
  FloatOps.addf (FloatOps.mulf (re1 a0 a1 (slow2 l)) (a3 (fast2 l))) (FloatOps.mulf (im1 a0 a1 (slow2 l)) (a2 (fast2 l)))

/-- Real part of z2[j] · w[r] at d = j·32 + r: the first result. -/
def re3 (a0 a1 a2 a3 a4 a5 : S32.Idx → Elt F .f32) : S32768.Idx → Elt F .f32 := fun i =>
  FloatOps.subf (FloatOps.mulf (re2 a0 a1 a2 a3 (slow3 i)) (a4 (fast3 i))) (FloatOps.mulf (im2 a0 a1 a2 a3 (slow3 i)) (a5 (fast3 i)))

/-- Imaginary part of z2[j] · w[r] at d = j·32 + r: the second result. -/
def im3 (a0 a1 a2 a3 a4 a5 : S32.Idx → Elt F .f32) : S32768.Idx → Elt F .f32 := fun i =>
  FloatOps.addf (FloatOps.mulf (re2 a0 a1 a2 a3 (slow3 i)) (a5 (fast3 i))) (FloatOps.mulf (im2 a0 a1 a2 a3 (slow3 i)) (a4 (fast3 i)))

end Cert.Chain

end
-- ==== Proof.KernelBody.lean ====
/-
  The kernel body's two result blocks as functions of its six loaded blocks, for any float type.

  The body receives the [1, 32, 32] blocks P0 … P5 of the six inputs (real and imaginary parts of the three factors) at one
  batch entry and 32 positions. It forms the first two stages of the chain as [1, 32, 32, 32] arrays,
    R[p, i, j] = (P0[p,i] - P1[p,i]) · P2[p,j] - (P0[p,i] + P1[p,i]) · P3[p,j],
    I[p, i, j] = (P0[p,i] - P1[p,i]) · P3[p,j] + (P0[p,i] + P1[p,i]) · P2[p,j],
  each the outer product of a column (an array with a trailing unit axis, copied along the last axis) with a row (a unit
  axis before the last, copied along it). Then, for every i < 32, it takes the rows R[p, i, ·] and I[p, i, ·], multiplies them
  as a column against the third factor as a row,
    R[p,i,j] · P4[p,r] - I[p,i,j] · P5[p,r]    and    R[p,i,j] · P5[p,r] + I[p,i,j] · P4[p,r],
  flattens (j, r) to j·32 + r, and stores the 1024 values at offset i·1024 of the result block's long axis. So position
  d = i·1024 + j·32 + r of the block reads the first factor at i = d / 1024, the second at j = d / 32 mod 32 and the third at
  r = d mod 32. The 32 chunks are written one after the other and tile the block; the block they leave is that one function.
-/
import proofs.«133994_j54838142435818_2_alg».proof.Proof.Gen.KernelIdeal.Frame
import Idealize.ShloMosaic.Lib.Pipeline.Value
import Idealize.ShloMosaic.Lib.ValueIdx

noncomputable section

namespace Cert.KernelIdeal.Body

open Cert.KernelIdeal Cert.KernelIdeal.Gen
open Idealize.ShloMosaic Idealize.ShloMosaic.TcCoe Idealize.ShloMosaic.ValueIdx

variable {F : FTy → Type} [FloatOps F]

/-! ## The block-level function -/

/-- Position d of the long axis reads the first factor at d / 1024. -/
def at1st (y : S1x32x32768.Idx) : S1x32x32.Idx :=
  ix3 (y 0) (y 1) ⟨(y 2).val / 1024, by have h : (y 2).val < 32768 := (y 2).isLt; omega⟩

/-- … the second factor at d / 32 mod 32. -/
def at2nd (y : S1x32x32768.Idx) : S1x32x32.Idx :=
  ix3 (y 0) (y 1) ⟨(y 2).val / 32 % 32, by omega⟩

/-- … and the third factor at d mod 32. -/
def at3rd (y : S1x32x32768.Idx) : S1x32x32.Idx :=
  ix3 (y 0) (y 1) ⟨(y 2).val % 32, by omega⟩

/-- Real part of (1 + i)(P0 + i·P1)[u] · (P2 + i·P3)[v]. -/
def midRe (P0 P1 P2 P3 : Vec F S1x32x32 .f32) (u v : S1x32x32.Idx) : Elt F .f32 :=
  FloatOps.subf (FloatOps.mulf (FloatOps.subf (P0 u) (P1 u)) (P2 v)) (FloatOps.mulf (FloatOps.addf (P0 u) (P1 u)) (P3 v))

/-- Imaginary part of the same product. -/
def midIm (P0 P1 P2 P3 : Vec F S1x32x32 .f32) (u v : S1x32x32.Idx) : Elt F .f32 :=
  FloatOps.addf (FloatOps.mulf (FloatOps.subf (P0 u) (P1 u)) (P3 v)) (FloatOps.mulf (FloatOps.addf (P0 u) (P1 u)) (P2 v))

/-- The first result's block: real part of the three-fold product. -/
def blockRe (P0 P1 P2 P3 P4 P5 : Vec F S1x32x32 .f32) : Vec F S1x32x32768 .f32 := fun y =>
  FloatOps.subf (FloatOps.mulf (midRe P0 P1 P2 P3 (at1st y) (at2nd y)) (P4 (at3rd y)))
    (FloatOps.mulf (midIm P0 P1 P2 P3 (at1st y) (at2nd y)) (P5 (at3rd y)))

/-- The second result's block: imaginary part of the three-fold product. -/
def blockIm (P0 P1 P2 P3 P4 P5 : Vec F S1x32x32 .f32) : Vec F S1x32x32768 .f32 := fun y =>
  FloatOps.addf (FloatOps.mulf (midRe P0 P1 P2 P3 (at1st y) (at2nd y)) (P5 (at3rd y)))
    (FloatOps.mulf (midIm P0 P1 P2 P3 (at1st y) (at2nd y)) (P4 (at3rd y)))

/-! ## Columns, rows and outer products read at coordinates -/

/-- A [1, 32, 32] array as a column: a trailing unit axis, copied along the new last axis. -/
abbrev colOf (A : FVec F S1x32x32 .f32) : FVec F S1x32x32x32 .f32 :=
  broadcastTo S1x32x32x32 (shapeCast S1x32x32x1 A shapeCasts_S1x32x32_S1x32x32x1) broadcasts_S1x32x32x1_S1x32x32x32

/-- A [1, 32, 32] array as a row: a unit axis before the last, copied along it. -/
abbrev rowOf (B : FVec F S1x32x32 .f32) : FVec F S1x32x32x32 .f32 :=
  broadcastTo S1x32x32x32 (shapeCast S1x32x1x32 B shapeCasts_S1x32x32_S1x32x1x32) broadcasts_S1x32x1x32_S1x32x32x32

/-- Row number `off 2` of a [1, 32, 32, 32] array, as a [1, 32, 32] array. -/
abbrev rowAt (off : Fin 4 → Nat) (hs : S1x32x32x32.Slices off S1x32x1x32) (T : FVec F S1x32x32x32 .f32) : FVec F S1x32x32 .f32 :=
  shapeCast S1x32x32 (extractStridedSlice S1x32x1x32 off T hs) shapeCasts_S1x32x1x32_S1x32x32

/-- The column read at (a, p, q, r) is the array at (a, p, q). -/
theorem colOf_apply (A : FVec F S1x32x32 .f32) (a : Fin 1) (p q r : Fin 32) : colOf A (ix4 a p q r) = A (ix3 a p q) := by
  refine (broadcastTo_apply _ _ (ix4 a p q r) (ix4 a p q (0 : Fin 1)) (fun d => ?_)).trans ?_
  · match d with
    | ⟨0, _⟩ => show a.val = if (1 : Nat) = 1 then 0 else a.val; rw [if_pos rfl]; omega
    | ⟨1, _⟩ => show p.val = if (32 : Nat) = 1 then 0 else p.val; rw [if_neg (by decide)]
    | ⟨2, _⟩ => show q.val = if (32 : Nat) = 1 then 0 else q.val; rw [if_neg (by decide)]
    | ⟨3, _⟩ => show 0 = if (1 : Nat) = 1 then 0 else r.val; rw [if_pos rfl]
  · refine shapeCast_apply _ _ (ix4 a p q (0 : Fin 1)) (ix3 a p q) ?_
    rw [Shape.rowMajor_val_three, Shape.rowMajor_val_four]
    show (a.val * 32 + p.val) * 32 + q.val = ((a.val * 32 + p.val) * 32 + q.val) * 1 + 0
    omega

/-- The row read at (a, p, q, r) is the array at (a, p, r). -/
theorem rowOf_apply (B : FVec F S1x32x32 .f32) (a : Fin 1) (p q r : Fin 32) : rowOf B (ix4 a p q r) = B (ix3 a p r) := by
  refine (broadcastTo_apply _ _ (ix4 a p q r) (ix4 a p (0 : Fin 1) r) (fun d => ?_)).trans ?_
  · match d with
    | ⟨0, _⟩ => show a.val = if (1 : Nat) = 1 then 0 else a.val; rw [if_pos rfl]; omega
    | ⟨1, _⟩ => show p.val = if (32 : Nat) = 1 then 0 else p.val; rw [if_neg (by decide)]
    | ⟨2, _⟩ => show 0 = if (1 : Nat) = 1 then 0 else q.val; rw [if_pos rfl]
    | ⟨3, _⟩ => show r.val = if (32 : Nat) = 1 then 0 else r.val; rw [if_neg (by decide)]
  · refine shapeCast_apply _ _ (ix4 a p (0 : Fin 1) r) (ix3 a p r) ?_
    rw [Shape.rowMajor_val_three, Shape.rowMajor_val_four]
    show (a.val * 32 + p.val) * 32 + r.val = ((a.val * 32 + p.val) * 1 + 0) * 32 + r.val
    omega

/-- Row k of a [1, 32, 32, 32] array read at (a, p, q) is the array at (a, p, k, q). -/
theorem rowAt_apply (k : Nat) (hk : k < 32) (hs : S1x32x32x32.Slices ![0, 0, k, 0] S1x32x1x32) (T : FVec F S1x32x32x32 .f32)
    (a : Fin 1) (p q : Fin 32) : rowAt ![0, 0, k, 0] hs T (ix3 a p q) = T (ix4 a p ⟨k, hk⟩ q) := by
  refine (shapeCast_apply _ _ (ix3 a p q) (ix4 a p (0 : Fin 1) q) ?_).trans ?_
  · rw [Shape.rowMajor_val_four, Shape.rowMajor_val_three]
    show ((a.val * 32 + p.val) * 1 + 0) * 32 + q.val = (a.val * 32 + p.val) * 32 + q.val
    omega
  · refine extractStridedSlice_apply _ _ _ (ix4 a p (0 : Fin 1) q) (ix4 a p ⟨k, hk⟩ q) (fun d => ?_)
    match d with
    | ⟨0, _⟩ => show a.val = 0 + a.val; omega
    | ⟨1, _⟩ => show p.val = 0 + p.val; omega
    | ⟨2, _⟩ => show k = k + 0; omega
    | ⟨3, _⟩ => show q.val = 0 + q.val; omega

/-- The second stage's real part, at (a, p, i, j). -/
theorem stage2_re (P0 P1 P2 P3 : Vec F S1x32x32 .f32) (a : Fin 1) (p i j : Fin 32) :
    k0_pay7 P0 P1 P2 P3 (ix4 a p i j) = midRe P0 P1 P2 P3 (ix3 a p i) (ix3 a p j) := by
  show FloatOps.subf (FloatOps.mulf (colOf (subf P0 P1) (ix4 a p i j)) (rowOf P2 (ix4 a p i j)))
      (FloatOps.mulf (colOf (addf P0 P1) (ix4 a p i j)) (rowOf P3 (ix4 a p i j))) = _
  rw [colOf_apply, rowOf_apply, colOf_apply, rowOf_apply]
  rfl

/-- The second stage's imaginary part, at (a, p, i, j). -/
theorem stage2_im (P0 P1 P2 P3 : Vec F S1x32x32 .f32) (a : Fin 1) (p i j : Fin 32) :
    k0_pay8 P0 P1 P2 P3 (ix4 a p i j) = midIm P0 P1 P2 P3 (ix3 a p i) (ix3 a p j) := by
  show FloatOps.addf (FloatOps.mulf (colOf (subf P0 P1) (ix4 a p i j)) (rowOf P3 (ix4 a p i j)))
      (FloatOps.mulf (colOf (addf P0 P1) (ix4 a p i j)) (rowOf P2 (ix4 a p i j))) = _
  rw [colOf_apply, rowOf_apply, colOf_apply, rowOf_apply]
  rfl

/-! ## One chunk of 1024 values -/

/-- The chunk of the first result built from row `off 2` of the second stage: (R-row as a column) · (P4 as a row) minus
    (I-row as a column) · (P5 as a row), flattened. -/
def chunkRe (off : Fin 4 → Nat) (hs : S1x32x32x32.Slices off S1x32x1x32) (R I : FVec F S1x32x32x32 .f32) (P4 P5 : Vec F S1x32x32 .f32) :
    FVec F S1x32x1024 .f32 :=
  shapeCast S1x32x1024 (subf (mulf (colOf (rowAt off hs R)) (rowOf P4)) (mulf (colOf (rowAt off hs I)) (rowOf P5)))
    shapeCasts_S1x32x32x32_S1x32x1024

/-- The chunk of the second result: (R-row) · P5 plus (I-row) · P4, flattened. -/
def chunkIm (off : Fin 4 → Nat) (hs : S1x32x32x32.Slices off S1x32x1x32) (R I : FVec F S1x32x32x32 .f32) (P4 P5 : Vec F S1x32x32 .f32) :
    FVec F S1x32x1024 .f32 :=
  shapeCast S1x32x1024 (addf (mulf (colOf (rowAt off hs R)) (rowOf P5)) (mulf (colOf (rowAt off hs I)) (rowOf P4)))
    shapeCasts_S1x32x32x32_S1x32x1024

/-- Where entry x of chunk k lands and what it reads: with d = k·1024 + x₂ the position on the long axis,
    d / 1024 = k, d / 32 mod 32 = x₂ / 32 and d mod 32 = x₂ mod 32. -/
theorem chunk_coords (k : Nat) (hk : k < 32) (x : S1x32x1024.Idx) (y : S1x32x32768.Idx) (o : Nat) (ho : o = k * 1024)
    (h0 : (y 0).val = 0 + 1 * (x 0).val) (h1 : (y 1).val = 0 + 1 * (x 1).val) (h2 : (y 2).val = o + 1 * (x 2).val)
    (a : Fin 1) (p j r : Fin 32) (ha : a.val = (x 0).val) (hp : p.val = (x 1).val) (hj : j.val = (x 2).val / 32) (hr : r.val = (x 2).val % 32) :
    ix3 a p (⟨k, hk⟩ : Fin 32) = at1st y ∧ ix3 a p j = at2nd y ∧ ix3 a p r = at3rd y := by
  have hx2 : (x 2).val < 1024 := (x 2).isLt
  refine ⟨?_, ?_, ?_⟩ <;> (funext d; apply Fin.ext)
  · match d with
    | ⟨0, _⟩ => show a.val = (y 0).val; omega
    | ⟨1, _⟩ => show p.val = (y 1).val; omega
    | ⟨2, _⟩ => show k = (y 2).val / 1024; omega
  · match d with
    | ⟨0, _⟩ => show a.val = (y 0).val; omega
    | ⟨1, _⟩ => show p.val = (y 1).val; omega
    | ⟨2, _⟩ => show j.val = (y 2).val / 32 % 32; omega
  · match d with
    | ⟨0, _⟩ => show a.val = (y 0).val; omega
    | ⟨1, _⟩ => show p.val = (y 1).val; omega
    | ⟨2, _⟩ => show r.val = (y 2).val % 32; omega

/-- Entry x of a flattened [1, 32, 32, 32] array is the entry (x₀, x₁, x₂ / 32, x₂ mod 32). -/
theorem flat_apply (T : FVec F S1x32x32x32 .f32) (x : S1x32x1024.Idx) (a : Fin 1) (p j r : Fin 32)
    (ha : a.val = (x 0).val) (hp : p.val = (x 1).val) (hj : j.val = (x 2).val / 32) (hr : r.val = (x 2).val % 32) :
    shapeCast S1x32x1024 T shapeCasts_S1x32x32x32_S1x32x1024 x = T (ix4 a p j r) := by
  refine shapeCast_apply _ _ x (ix4 a p j r) ?_
  rw [Shape.rowMajor_val_four, Shape.rowMajor_val_three]
  show ((a.val * 32 + p.val) * 32 + j.val) * 32 + r.val = ((x 0).val * 32 + (x 1).val) * 1024 + (x 2).val
  omega

/-- Chunk k of the first result, entry by entry, is the block function at the position the chunk is stored to. -/
theorem chunkRe_apply (k : Nat) (hk : k < 32) (hs : S1x32x32x32.Slices ![0, 0, k, 0] S1x32x1x32)
    (P0 P1 P2 P3 P4 P5 : Vec F S1x32x32 .f32) (x : S1x32x1024.Idx) (y : S1x32x32768.Idx) (o : Nat) (ho : o = k * 1024)
    (h0 : (y 0).val = 0 + 1 * (x 0).val) (h1 : (y 1).val = 0 + 1 * (x 1).val) (h2 : (y 2).val = o + 1 * (x 2).val) :
    chunkRe ![0, 0, k, 0] hs (k0_pay7 P0 P1 P2 P3) (k0_pay8 P0 P1 P2 P3) P4 P5 x = blockRe P0 P1 P2 P3 P4 P5 y := by
  have hx0 : (x 0).val < 1 := (x 0).isLt
  have hx1 : (x 1).val < 32 := (x 1).isLt
  have hx2 : (x 2).val < 1024 := (x 2).isLt
  obtain ⟨e1, e2, e3⟩ := chunk_coords k hk x y o ho h0 h1 h2 ⟨(x 0).val, hx0⟩ ⟨(x 1).val, hx1⟩ ⟨(x 2).val / 32, by omega⟩
    ⟨(x 2).val % 32, by omega⟩ rfl rfl rfl rfl
  refine (flat_apply _ x ⟨(x 0).val, hx0⟩ ⟨(x 1).val, hx1⟩ ⟨(x 2).val / 32, by omega⟩ ⟨(x 2).val % 32, by omega⟩ rfl rfl rfl rfl).trans ?_
  show FloatOps.subf (FloatOps.mulf (colOf (rowAt ![0, 0, k, 0] hs (k0_pay7 P0 P1 P2 P3)) (ix4 _ _ _ _)) (rowOf P4 (ix4 _ _ _ _)))
      (FloatOps.mulf (colOf (rowAt ![0, 0, k, 0] hs (k0_pay8 P0 P1 P2 P3)) (ix4 _ _ _ _)) (rowOf P5 (ix4 _ _ _ _))) = _
  rw [colOf_apply, rowOf_apply, colOf_apply, rowOf_apply, rowAt_apply k hk, rowAt_apply k hk, stage2_re, stage2_im, e1, e2, e3]
  rfl

/-- Chunk k of the second result, entry by entry. -/
theorem chunkIm_apply (k : Nat) (hk : k < 32) (hs : S1x32x32x32.Slices ![0, 0, k, 0] S1x32x1x32)
    (P0 P1 P2 P3 P4 P5 : Vec F S1x32x32 .f32) (x : S1x32x1024.Idx) (y : S1x32x32768.Idx) (o : Nat) (ho : o = k * 1024)
    (h0 : (y 0).val = 0 + 1 * (x 0).val) (h1 : (y 1).val = 0 + 1 * (x 1).val) (h2 : (y 2).val = o + 1 * (x 2).val) :
    chunkIm ![0, 0, k, 0] hs (k0_pay7 P0 P1 P2 P3) (k0_pay8 P0 P1 P2 P3) P4 P5 x = blockIm P0 P1 P2 P3 P4 P5 y := by
  have hx0 : (x 0).val < 1 := (x 0).isLt
  have hx1 : (x 1).val < 32 := (x 1).isLt
  have hx2 : (x 2).val < 1024 := (x 2).isLt
  obtain ⟨e1, e2, e3⟩ := chunk_coords k hk x y o ho h0 h1 h2 ⟨(x 0).val, hx0⟩ ⟨(x 1).val, hx1⟩ ⟨(x 2).val / 32, by omega⟩
    ⟨(x 2).val % 32, by omega⟩ rfl rfl rfl rfl
  refine (flat_apply _ x ⟨(x 0).val, hx0⟩ ⟨(x 1).val, hx1⟩ ⟨(x 2).val / 32, by omega⟩ ⟨(x 2).val % 32, by omega⟩ rfl rfl rfl rfl).trans ?_
  show FloatOps.addf (FloatOps.mulf (colOf (rowAt ![0, 0, k, 0] hs (k0_pay7 P0 P1 P2 P3)) (ix4 _ _ _ _)) (rowOf P5 (ix4 _ _ _ _)))
      (FloatOps.mulf (colOf (rowAt ![0, 0, k, 0] hs (k0_pay8 P0 P1 P2 P3)) (ix4 _ _ _ _)) (rowOf P4 (ix4 _ _ _ _))) = _
  rw [colOf_apply, rowOf_apply, colOf_apply, rowOf_apply, rowAt_apply k hk, rowAt_apply k hk, stage2_re, stage2_im, e1, e2, e3]
  rfl

/-! ## The 32 + 32 stored values are the chunks

Each value the body stores is, by unfolding its definition, the chunk built from row k of the second stage. -/

theorem re_chunk0 (P0 P1 P2 P3 P4 P5 : Vec F S1x32x32 .f32) :
    k0_pay15 (k0_pay13 P0 P1 P2 P3 P4) (k0_pay14 P0 P1 P2 P3 P5)
      = chunkRe ![0, 0, 0, 0] slices_S1x32x32x32_o0_0_0_0_S1x32x1x32 (k0_pay7 P0 P1 P2 P3) (k0_pay8 P0 P1 P2 P3) P4 P5 := rfl
theorem im_chunk0 (P0 P1 P2 P3 P4 P5 : Vec F S1x32x32 .f32) :
    k0_pay16 (k0_pay9 P0 P1 P2 P3) (k0_pay10 P0 P1 P2 P3) (k0_pay11 P4) (k0_pay12 P5)
      = chunkIm ![0, 0, 0, 0] slices_S1x32x32x32_o0_0_0_0_S1x32x1x32 (k0_pay7 P0 P1 P2 P3) (k0_pay8 P0 P1 P2 P3) P4 P5 := rfl

theorem re_chunk1 (P0 P1 P2 P3 P4 P5 : Vec F S1x32x32 .f32) :
    k0_pay21 P4 P5 (k0_pay7 P0 P1 P2 P3) (k0_pay8 P0 P1 P2 P3)
      = chunkRe ![0, 0, 1, 0] slices_S1x32x32x32_o0_0_1_0_S1x32x1x32 (k0_pay7 P0 P1 P2 P3) (k0_pay8 P0 P1 P2 P3) P4 P5 := rfl
theorem im_chunk1 (P0 P1 P2 P3 P4 P5 : Vec F S1x32x32 .f32) :
    k0_pay22 P4 P5 (k0_pay7 P0 P1 P2 P3) (k0_pay8 P0 P1 P2 P3)
      = chunkIm ![0, 0, 1, 0] slices_S1x32x32x32_o0_0_1_0_S1x32x1x32 (k0_pay7 P0 P1 P2 P3) (k0_pay8 P0 P1 P2 P3) P4 P5 := rfl

theorem re_chunk2 (P0 P1 P2 P3 P4 P5 : Vec F S1x32x32 .f32) :
    k0_pay27 P4 P5 (k0_pay23 (k0_pay7 P0 P1 P2 P3)) (k0_pay24 (k0_pay8 P0 P1 P2 P3))
      = chunkRe ![0, 0, 2, 0] slices_S1x32x32x32_o0_0_2_0_S1x32x1x32 (k0_pay7 P0 P1 P2 P3) (k0_pay8 P0 P1 P2 P3) P4 P5 := rfl
theorem im_chunk2 (P0 P1 P2 P3 P4 P5 : Vec F S1x32x32 .f32) :
    k0_pay28 P4 P5 (k0_pay23 (k0_pay7 P0 P1 P2 P3)) (k0_pay24 (k0_pay8 P0 P1 P2 P3))
      = chunkIm ![0, 0, 2, 0] slices_S1x32x32x32_o0_0_2_0_S1x32x1x32 (k0_pay7 P0 P1 P2 P3) (k0_pay8 P0 P1 P2 P3) P4 P5 := rfl

theorem re_chunk3 (P0 P1 P2 P3 P4 P5 : Vec F S1x32x32 .f32) :
    k0_pay33 P4 P5 (k0_pay7 P0 P1 P2 P3) (k0_pay8 P0 P1 P2 P3)
      = chunkRe ![0, 0, 3, 0] slices_S1x32x32x32_o0_0_3_0_S1x32x1x32 (k0_pay7 P0 P1 P2 P3) (k0_pay8 P0 P1 P2 P3) P4 P5 := rfl
theorem im_chunk3 (P0 P1 P2 P3 P4 P5 : Vec F S1x32x32 .f32) :
    k0_pay34 P4 P5 (k0_pay7 P0 P1 P2 P3) (k0_pay8 P0 P1 P2 P3)
      = chunkIm ![0, 0, 3, 0] slices_S1x32x32x32_o0_0_3_0_S1x32x1x32 (k0_pay7 P0 P1 P2 P3) (k0_pay8 P0 P1 P2 P3) P4 P5 := rfl

theorem re_chunk4 (P0 P1 P2 P3 P4 P5 : Vec F S1x32x32 .f32) :
    k0_pay39 P4 P5 (k0_pay7 P0 P1 P2 P3) (k0_pay8 P0 P1 P2 P3)
      = chunkRe ![0, 0, 4, 0] slices_S1x32x32x32_o0_0_4_0_S1x32x1x32 (k0_pay7 P0 P1 P2 P3) (k0_pay8 P0 P1 P2 P3) P4 P5 := rfl
theorem im_chunk4 (P0 P1 P2 P3 P4 P5 : Vec F S1x32x32 .f32) :
    k0_pay40 P4 P5 (k0_pay7 P0 P1 P2 P3) (k0_pay8 P0 P1 P2 P3)
      = chunkIm ![0, 0, 4, 0] slices_S1x32x32x32_o0_0_4_0_S1x32x1x32 (k0_pay7 P0 P1 P2 P3) (k0_pay8 P0 P1 P2 P3) P4 P5 := rfl

theorem re_chunk5 (P0 P1 P2 P3 P4 P5 : Vec F S1x32x32 .f32) :
    k0_pay45 P4 P5 (k0_pay7 P0 P1 P2 P3) (k0_pay8 P0 P1 P2 P3)
      = chunkRe ![0, 0, 5, 0] slices_S1x32x32x32_o0_0_5_0_S1x32x1x32 (k0_pay7 P0 P1 P2 P3) (k0_pay8 P0 P1 P2 P3) P4 P5 := rfl
theorem im_chunk5 (P0 P1 P2 P3 P4 P5 : Vec F S1x32x32 .f32) :
    k0_pay46 P4 P5 (k0_pay7 P0 P1 P2 P3) (k0_pay8 P0 P1 P2 P3)
      = chunkIm ![0, 0, 5, 0] slices_S1x32x32x32_o0_0_5_0_S1x32x1x32 (k0_pay7 P0 P1 P2 P3) (k0_pay8 P0 P1 P2 P3) P4 P5 := rfl

theorem re_chunk6 (P0 P1 P2 P3 P4 P5 : Vec F S1x32x32 .f32) :
    k0_pay51 P4 P5 (k0_pay7 P0 P1 P2 P3) (k0_pay8 P0 P1 P2 P3)
      = chunkRe ![0, 0, 6, 0] slices_S1x32x32x32_o0_0_6_0_S1x32x1x32 (k0_pay7 P0 P1 P2 P3) (k0_pay8 P0 P1 P2 P3) P4 P5 := rfl
theorem im_chunk6 (P0 P1 P2 P3 P4 P5 : Vec F S1x32x32 .f32) :
    k0_pay52 P4 P5 (k0_pay7 P0 P1 P2 P3) (k0_pay8 P0 P1 P2 P3)
      = chunkIm ![0, 0, 6, 0] slices_S1x32x32x32_o0_0_6_0_S1x32x1x32 (k0_pay7 P0 P1 P2 P3) (k0_pay8 P0 P1 P2 P3) P4 P5 := rfl

theorem re_chunk7 (P0 P1 P2 P3 P4 P5 : Vec F S1x32x32 .f32) :
    k0_pay59 (k0_pay57 P4 P5 (k0_pay7 P0 P1 P2 P3) (k0_pay8 P0 P1 P2 P3))
      = chunkRe ![0, 0, 7, 0] slices_S1x32x32x32_o0_0_7_0_S1x32x1x32 (k0_pay7 P0 P1 P2 P3) (k0_pay8 P0 P1 P2 P3) P4 P5 := rfl
theorem im_chunk7 (P0 P1 P2 P3 P4 P5 : Vec F S1x32x32 .f32) :
    k0_pay60 (k0_pay54 (k0_pay8 P0 P1 P2 P3)) (k0_pay55 P4) (k0_pay56 P5) (k0_pay58 (k0_pay7 P0 P1 P2 P3))
      = chunkIm ![0, 0, 7, 0] slices_S1x32x32x32_o0_0_7_0_S1x32x1x32 (k0_pay7 P0 P1 P2 P3) (k0_pay8 P0 P1 P2 P3) P4 P5 := rfl

theorem re_chunk8 (P0 P1 P2 P3 P4 P5 : Vec F S1x32x32 .f32) :
    k0_pay65 P4 P5 (k0_pay7 P0 P1 P2 P3) (k0_pay8 P0 P1 P2 P3)
      = chunkRe ![0, 0, 8, 0] slices_S1x32x32x32_o0_0_8_0_S1x32x1x32 (k0_pay7 P0 P1 P2 P3) (k0_pay8 P0 P1 P2 P3) P4 P5 := rfl
theorem im_chunk8 (P0 P1 P2 P3 P4 P5 : Vec F S1x32x32 .f32) :
    k0_pay66 P4 P5 (k0_pay7 P0 P1 P2 P3) (k0_pay8 P0 P1 P2 P3)
      = chunkIm ![0, 0, 8, 0] slices_S1x32x32x32_o0_0_8_0_S1x32x1x32 (k0_pay7 P0 P1 P2 P3) (k0_pay8 P0 P1 P2 P3) P4 P5 := rfl

theorem re_chunk9 (P0 P1 P2 P3 P4 P5 : Vec F S1x32x32 .f32) :
    k0_pay71 (k0_pay67 (k0_pay7 P0 P1 P2 P3)) (k0_pay68 (k0_pay8 P0 P1 P2 P3)) (k0_pay69 P4) (k0_pay70 P5)
      = chunkRe ![0, 0, 9, 0] slices_S1x32x32x32_o0_0_9_0_S1x32x1x32 (k0_pay7 P0 P1 P2 P3) (k0_pay8 P0 P1 P2 P3) P4 P5 := rfl
theorem im_chunk9 (P0 P1 P2 P3 P4 P5 : Vec F S1x32x32 .f32) :
    k0_pay72 (k0_pay67 (k0_pay7 P0 P1 P2 P3)) (k0_pay68 (k0_pay8 P0 P1 P2 P3)) (k0_pay69 P4) (k0_pay70 P5)
      = chunkIm ![0, 0, 9, 0] slices_S1x32x32x32_o0_0_9_0_S1x32x1x32 (k0_pay7 P0 P1 P2 P3) (k0_pay8 P0 P1 P2 P3) P4 P5 := rfl

theorem re_chunk10 (P0 P1 P2 P3 P4 P5 : Vec F S1x32x32 .f32) :
    k0_pay77 P4 P5 (k0_pay7 P0 P1 P2 P3) (k0_pay8 P0 P1 P2 P3)
      = chunkRe ![0, 0, 10, 0] slices_S1x32x32x32_o0_0_10_0_S1x32x1x32 (k0_pay7 P0 P1 P2 P3) (k0_pay8 P0 P1 P2 P3) P4 P5 := rfl
theorem im_chunk10 (P0 P1 P2 P3 P4 P5 : Vec F S1x32x32 .f32) :
    k0_pay78 P4 P5 (k0_pay7 P0 P1 P2 P3) (k0_pay8 P0 P1 P2 P3)
      = chunkIm ![0, 0, 10, 0] slices_S1x32x32x32_o0_0_10_0_S1x32x1x32 (k0_pay7 P0 P1 P2 P3) (k0_pay8 P0 P1 P2 P3) P4 P5 := rfl

theorem re_chunk11 (P0 P1 P2 P3 P4 P5 : Vec F S1x32x32 .f32) :
    k0_pay83 P4 P5 (k0_pay7 P0 P1 P2 P3) (k0_pay8 P0 P1 P2 P3)
      = chunkRe ![0, 0, 11, 0] slices_S1x32x32x32_o0_0_11_0_S1x32x1x32 (k0_pay7 P0 P1 P2 P3) (k0_pay8 P0 P1 P2 P3) P4 P5 := rfl
theorem im_chunk11 (P0 P1 P2 P3 P4 P5 : Vec F S1x32x32 .f32) :
    k0_pay84 P4 P5 (k0_pay7 P0 P1 P2 P3) (k0_pay8 P0 P1 P2 P3)
      = chunkIm ![0, 0, 11, 0] slices_S1x32x32x32_o0_0_11_0_S1x32x1x32 (k0_pay7 P0 P1 P2 P3) (k0_pay8 P0 P1 P2 P3) P4 P5 := rfl

theorem re_chunk12 (P0 P1 P2 P3 P4 P5 : Vec F S1x32x32 .f32) :
    k0_pay89 P4 P5 (k0_pay7 P0 P1 P2 P3) (k0_pay8 P0 P1 P2 P3)
      = chunkRe ![0, 0, 12, 0] slices_S1x32x32x32_o0_0_12_0_S1x32x1x32 (k0_pay7 P0 P1 P2 P3) (k0_pay8 P0 P1 P2 P3) P4 P5 := rfl
theorem im_chunk12 (P0 P1 P2 P3 P4 P5 : Vec F S1x32x32 .f32) :
    k0_pay90 P4 P5 (k0_pay7 P0 P1 P2 P3) (k0_pay8 P0 P1 P2 P3)
      = chunkIm ![0, 0, 12, 0] slices_S1x32x32x32_o0_0_12_0_S1x32x1x32 (k0_pay7 P0 P1 P2 P3) (k0_pay8 P0 P1 P2 P3) P4 P5 := rfl

theorem re_chunk13 (P0 P1 P2 P3 P4 P5 : Vec F S1x32x32 .f32) :
    k0_pay95 P4 P5 (k0_pay7 P0 P1 P2 P3) (k0_pay8 P0 P1 P2 P3)
      = chunkRe ![0, 0, 13, 0] slices_S1x32x32x32_o0_0_13_0_S1x32x1x32 (k0_pay7 P0 P1 P2 P3) (k0_pay8 P0 P1 P2 P3) P4 P5 := rfl
theorem im_chunk13 (P0 P1 P2 P3 P4 P5 : Vec F S1x32x32 .f32) :
    k0_pay96 P4 P5 (k0_pay7 P0 P1 P2 P3) (k0_pay8 P0 P1 P2 P3)
      = chunkIm ![0, 0, 13, 0] slices_S1x32x32x32_o0_0_13_0_S1x32x1x32 (k0_pay7 P0 P1 P2 P3) (k0_pay8 P0 P1 P2 P3) P4 P5 := rfl

theorem re_chunk14 (P0 P1 P2 P3 P4 P5 : Vec F S1x32x32 .f32) :
    k0_pay103 (k0_pay101 P4 P5 (k0_pay7 P0 P1 P2 P3) (k0_pay8 P0 P1 P2 P3))
      = chunkRe ![0, 0, 14, 0] slices_S1x32x32x32_o0_0_14_0_S1x32x1x32 (k0_pay7 P0 P1 P2 P3) (k0_pay8 P0 P1 P2 P3) P4 P5 := rfl
theorem im_chunk14 (P0 P1 P2 P3 P4 P5 : Vec F S1x32x32 .f32) :
    k0_pay104 (k0_pay98 (k0_pay8 P0 P1 P2 P3)) (k0_pay99 P4) (k0_pay102 P5 (k0_pay7 P0 P1 P2 P3))
      = chunkIm ![0, 0, 14, 0] slices_S1x32x32x32_o0_0_14_0_S1x32x1x32 (k0_pay7 P0 P1 P2 P3) (k0_pay8 P0 P1 P2 P3) P4 P5 := rfl

theorem re_chunk15 (P0 P1 P2 P3 P4 P5 : Vec F S1x32x32 .f32) :
    k0_pay109 P4 P5 (k0_pay7 P0 P1 P2 P3) (k0_pay8 P0 P1 P2 P3)
      = chunkRe ![0, 0, 15, 0] slices_S1x32x32x32_o0_0_15_0_S1x32x1x32 (k0_pay7 P0 P1 P2 P3) (k0_pay8 P0 P1 P2 P3) P4 P5 := rfl
theorem im_chunk15 (P0 P1 P2 P3 P4 P5 : Vec F S1x32x32 .f32) :
    k0_pay110 P4 P5 (k0_pay7 P0 P1 P2 P3) (k0_pay8 P0 P1 P2 P3)
      = chunkIm ![0, 0, 15, 0] slices_S1x32x32x32_o0_0_15_0_S1x32x1x32 (k0_pay7 P0 P1 P2 P3) (k0_pay8 P0 P1 P2 P3) P4 P5 := rfl

theorem re_chunk16 (P0 P1 P2 P3 P4 P5 : Vec F S1x32x32 .f32) :
    k0_pay117 (k0_pay112 (k0_pay8 P0 P1 P2 P3)) (k0_pay114 P5) (k0_pay115 (k0_pay7 P0 P1 P2 P3)) (k0_pay116 P4)
      = chunkRe ![0, 0, 16, 0] slices_S1x32x32x32_o0_0_16_0_S1x32x1x32 (k0_pay7 P0 P1 P2 P3) (k0_pay8 P0 P1 P2 P3) P4 P5 := rfl
theorem im_chunk16 (P0 P1 P2 P3 P4 P5 : Vec F S1x32x32 .f32) :
    k0_pay118 (k0_pay111 (k0_pay7 P0 P1 P2 P3)) (k0_pay112 (k0_pay8 P0 P1 P2 P3)) (k0_pay113 P4) (k0_pay114 P5)
      = chunkIm ![0, 0, 16, 0] slices_S1x32x32x32_o0_0_16_0_S1x32x1x32 (k0_pay7 P0 P1 P2 P3) (k0_pay8 P0 P1 P2 P3) P4 P5 := rfl

theorem re_chunk17 (P0 P1 P2 P3 P4 P5 : Vec F S1x32x32 .f32) :
    k0_pay123 P4 P5 (k0_pay7 P0 P1 P2 P3) (k0_pay8 P0 P1 P2 P3)
      = chunkRe ![0, 0, 17, 0] slices_S1x32x32x32_o0_0_17_0_S1x32x1x32 (k0_pay7 P0 P1 P2 P3) (k0_pay8 P0 P1 P2 P3) P4 P5 := rfl
theorem im_chunk17 (P0 P1 P2 P3 P4 P5 : Vec F S1x32x32 .f32) :
    k0_pay124 P4 P5 (k0_pay7 P0 P1 P2 P3) (k0_pay8 P0 P1 P2 P3)
      = chunkIm ![0, 0, 17, 0] slices_S1x32x32x32_o0_0_17_0_S1x32x1x32 (k0_pay7 P0 P1 P2 P3) (k0_pay8 P0 P1 P2 P3) P4 P5 := rfl

theorem re_chunk18 (P0 P1 P2 P3 P4 P5 : Vec F S1x32x32 .f32) :
    k0_pay130 P4 P5 (k0_pay8 P0 P1 P2 P3) (k0_pay125 (k0_pay7 P0 P1 P2 P3))
      = chunkRe ![0, 0, 18, 0] slices_S1x32x32x32_o0_0_18_0_S1x32x1x32 (k0_pay7 P0 P1 P2 P3) (k0_pay8 P0 P1 P2 P3) P4 P5 := rfl
theorem im_chunk18 (P0 P1 P2 P3 P4 P5 : Vec F S1x32x32 .f32) :
    k0_pay131 P4 P5 (k0_pay8 P0 P1 P2 P3) (k0_pay125 (k0_pay7 P0 P1 P2 P3))
      = chunkIm ![0, 0, 18, 0] slices_S1x32x32x32_o0_0_18_0_S1x32x1x32 (k0_pay7 P0 P1 P2 P3) (k0_pay8 P0 P1 P2 P3) P4 P5 := rfl

theorem re_chunk19 (P0 P1 P2 P3 P4 P5 : Vec F S1x32x32 .f32) :
    k0_pay136 P4 P5 (k0_pay7 P0 P1 P2 P3) (k0_pay8 P0 P1 P2 P3)
      = chunkRe ![0, 0, 19, 0] slices_S1x32x32x32_o0_0_19_0_S1x32x1x32 (k0_pay7 P0 P1 P2 P3) (k0_pay8 P0 P1 P2 P3) P4 P5 := rfl
theorem im_chunk19 (P0 P1 P2 P3 P4 P5 : Vec F S1x32x32 .f32) :
    k0_pay137 P4 P5 (k0_pay7 P0 P1 P2 P3) (k0_pay8 P0 P1 P2 P3)
      = chunkIm ![0, 0, 19, 0] slices_S1x32x32x32_o0_0_19_0_S1x32x1x32 (k0_pay7 P0 P1 P2 P3) (k0_pay8 P0 P1 P2 P3) P4 P5 := rfl

theorem re_chunk20 (P0 P1 P2 P3 P4 P5 : Vec F S1x32x32 .f32) :
    k0_pay142 P4 P5 (k0_pay7 P0 P1 P2 P3) (k0_pay8 P0 P1 P2 P3)
      = chunkRe ![0, 0, 20, 0] slices_S1x32x32x32_o0_0_20_0_S1x32x1x32 (k0_pay7 P0 P1 P2 P3) (k0_pay8 P0 P1 P2 P3) P4 P5 := rfl
theorem im_chunk20 (P0 P1 P2 P3 P4 P5 : Vec F S1x32x32 .f32) :
    k0_pay143 P4 P5 (k0_pay7 P0 P1 P2 P3) (k0_pay8 P0 P1 P2 P3)
      = chunkIm ![0, 0, 20, 0] slices_S1x32x32x32_o0_0_20_0_S1x32x1x32 (k0_pay7 P0 P1 P2 P3) (k0_pay8 P0 P1 P2 P3) P4 P5 := rfl

theorem re_chunk21 (P0 P1 P2 P3 P4 P5 : Vec F S1x32x32 .f32) :
    k0_pay152 (k0_pay148 P4 P5 (k0_pay7 P0 P1 P2 P3) (k0_pay8 P0 P1 P2 P3))
      = chunkRe ![0, 0, 21, 0] slices_S1x32x32x32_o0_0_21_0_S1x32x1x32 (k0_pay7 P0 P1 P2 P3) (k0_pay8 P0 P1 P2 P3) P4 P5 := rfl
theorem im_chunk21 (P0 P1 P2 P3 P4 P5 : Vec F S1x32x32 .f32) :
    k0_pay153 (k0_pay149 P5 (k0_pay7 P0 P1 P2 P3)) (k0_pay150 (k0_pay8 P0 P1 P2 P3)) (k0_pay151 P4)
      = chunkIm ![0, 0, 21, 0] slices_S1x32x32x32_o0_0_21_0_S1x32x1x32 (k0_pay7 P0 P1 P2 P3) (k0_pay8 P0 P1 P2 P3) P4 P5 := rfl

theorem re_chunk22 (P0 P1 P2 P3 P4 P5 : Vec F S1x32x32 .f32) :
    k0_pay158 P4 P5 (k0_pay7 P0 P1 P2 P3) (k0_pay8 P0 P1 P2 P3)
      = chunkRe ![0, 0, 22, 0] slices_S1x32x32x32_o0_0_22_0_S1x32x1x32 (k0_pay7 P0 P1 P2 P3) (k0_pay8 P0 P1 P2 P3) P4 P5 := rfl
theorem im_chunk22 (P0 P1 P2 P3 P4 P5 : Vec F S1x32x32 .f32) :
    k0_pay159 P4 P5 (k0_pay7 P0 P1 P2 P3) (k0_pay8 P0 P1 P2 P3)
      = chunkIm ![0, 0, 22, 0] slices_S1x32x32x32_o0_0_22_0_S1x32x1x32 (k0_pay7 P0 P1 P2 P3) (k0_pay8 P0 P1 P2 P3) P4 P5 := rfl

theorem re_chunk23 (P0 P1 P2 P3 P4 P5 : Vec F S1x32x32 .f32) :
    k0_pay166 (k0_pay163 P5) (k0_pay164 P4 (k0_pay7 P0 P1 P2 P3)) (k0_pay165 (k0_pay8 P0 P1 P2 P3))
      = chunkRe ![0, 0, 23, 0] slices_S1x32x32x32_o0_0_23_0_S1x32x1x32 (k0_pay7 P0 P1 P2 P3) (k0_pay8 P0 P1 P2 P3) P4 P5 := rfl
theorem im_chunk23 (P0 P1 P2 P3 P4 P5 : Vec F S1x32x32 .f32) :
    k0_pay167 (k0_pay160 (k0_pay7 P0 P1 P2 P3)) (k0_pay161 (k0_pay8 P0 P1 P2 P3)) (k0_pay162 P4) (k0_pay163 P5)
      = chunkIm ![0, 0, 23, 0] slices_S1x32x32x32_o0_0_23_0_S1x32x1x32 (k0_pay7 P0 P1 P2 P3) (k0_pay8 P0 P1 P2 P3) P4 P5 := rfl

theorem re_chunk24 (P0 P1 P2 P3 P4 P5 : Vec F S1x32x32 .f32) :
    k0_pay172 P4 P5 (k0_pay7 P0 P1 P2 P3) (k0_pay8 P0 P1 P2 P3)
      = chunkRe ![0, 0, 24, 0] slices_S1x32x32x32_o0_0_24_0_S1x32x1x32 (k0_pay7 P0 P1 P2 P3) (k0_pay8 P0 P1 P2 P3) P4 P5 := rfl
theorem im_chunk24 (P0 P1 P2 P3 P4 P5 : Vec F S1x32x32 .f32) :
    k0_pay173 P4 P5 (k0_pay7 P0 P1 P2 P3) (k0_pay8 P0 P1 P2 P3)
      = chunkIm ![0, 0, 24, 0] slices_S1x32x32x32_o0_0_24_0_S1x32x1x32 (k0_pay7 P0 P1 P2 P3) (k0_pay8 P0 P1 P2 P3) P4 P5 := rfl

theorem re_chunk25 (P0 P1 P2 P3 P4 P5 : Vec F S1x32x32 .f32) :
    k0_pay180 P4 P5 (k0_pay174 (k0_pay7 P0 P1 P2 P3)) (k0_pay175 (k0_pay8 P0 P1 P2 P3))
      = chunkRe ![0, 0, 25, 0] slices_S1x32x32x32_o0_0_25_0_S1x32x1x32 (k0_pay7 P0 P1 P2 P3) (k0_pay8 P0 P1 P2 P3) P4 P5 := rfl
theorem im_chunk25 (P0 P1 P2 P3 P4 P5 : Vec F S1x32x32 .f32) :
    k0_pay181 P4 P5 (k0_pay174 (k0_pay7 P0 P1 P2 P3)) (k0_pay175 (k0_pay8 P0 P1 P2 P3))
      = chunkIm ![0, 0, 25, 0] slices_S1x32x32x32_o0_0_25_0_S1x32x1x32 (k0_pay7 P0 P1 P2 P3) (k0_pay8 P0 P1 P2 P3) P4 P5 := rfl

theorem re_chunk26 (P0 P1 P2 P3 P4 P5 : Vec F S1x32x32 .f32) :
    k0_pay186 P4 P5 (k0_pay7 P0 P1 P2 P3) (k0_pay8 P0 P1 P2 P3)
      = chunkRe ![0, 0, 26, 0] slices_S1x32x32x32_o0_0_26_0_S1x32x1x32 (k0_pay7 P0 P1 P2 P3) (k0_pay8 P0 P1 P2 P3) P4 P5 := rfl
theorem im_chunk26 (P0 P1 P2 P3 P4 P5 : Vec F S1x32x32 .f32) :
    k0_pay187 P4 P5 (k0_pay7 P0 P1 P2 P3) (k0_pay8 P0 P1 P2 P3)
      = chunkIm ![0, 0, 26, 0] slices_S1x32x32x32_o0_0_26_0_S1x32x1x32 (k0_pay7 P0 P1 P2 P3) (k0_pay8 P0 P1 P2 P3) P4 P5 := rfl

theorem re_chunk27 (P0 P1 P2 P3 P4 P5 : Vec F S1x32x32 .f32) :
    k0_pay192 P4 P5 (k0_pay7 P0 P1 P2 P3) (k0_pay8 P0 P1 P2 P3)
      = chunkRe ![0, 0, 27, 0] slices_S1x32x32x32_o0_0_27_0_S1x32x1x32 (k0_pay7 P0 P1 P2 P3) (k0_pay8 P0 P1 P2 P3) P4 P5 := rfl
theorem im_chunk27 (P0 P1 P2 P3 P4 P5 : Vec F S1x32x32 .f32) :
    k0_pay193 P4 P5 (k0_pay7 P0 P1 P2 P3) (k0_pay8 P0 P1 P2 P3)
      = chunkIm ![0, 0, 27, 0] slices_S1x32x32x32_o0_0_27_0_S1x32x1x32 (k0_pay7 P0 P1 P2 P3) (k0_pay8 P0 P1 P2 P3) P4 P5 := rfl

theorem re_chunk28 (P0 P1 P2 P3 P4 P5 : Vec F S1x32x32 .f32) :
    k0_pay200 (k0_pay198 P4 P5 (k0_pay7 P0 P1 P2 P3) (k0_pay8 P0 P1 P2 P3))
      = chunkRe ![0, 0, 28, 0] slices_S1x32x32x32_o0_0_28_0_S1x32x1x32 (k0_pay7 P0 P1 P2 P3) (k0_pay8 P0 P1 P2 P3) P4 P5 := rfl
theorem im_chunk28 (P0 P1 P2 P3 P4 P5 : Vec F S1x32x32 .f32) :
    k0_pay201 (k0_pay199 P4 P5 (k0_pay7 P0 P1 P2 P3) (k0_pay8 P0 P1 P2 P3))
      = chunkIm ![0, 0, 28, 0] slices_S1x32x32x32_o0_0_28_0_S1x32x1x32 (k0_pay7 P0 P1 P2 P3) (k0_pay8 P0 P1 P2 P3) P4 P5 := rfl

theorem re_chunk29 (P0 P1 P2 P3 P4 P5 : Vec F S1x32x32 .f32) :
    k0_pay206 P4 P5 (k0_pay7 P0 P1 P2 P3) (k0_pay8 P0 P1 P2 P3)
      = chunkRe ![0, 0, 29, 0] slices_S1x32x32x32_o0_0_29_0_S1x32x1x32 (k0_pay7 P0 P1 P2 P3) (k0_pay8 P0 P1 P2 P3) P4 P5 := rfl
theorem im_chunk29 (P0 P1 P2 P3 P4 P5 : Vec F S1x32x32 .f32) :
    k0_pay207 P4 P5 (k0_pay7 P0 P1 P2 P3) (k0_pay8 P0 P1 P2 P3)
      = chunkIm ![0, 0, 29, 0] slices_S1x32x32x32_o0_0_29_0_S1x32x1x32 (k0_pay7 P0 P1 P2 P3) (k0_pay8 P0 P1 P2 P3) P4 P5 := rfl

theorem re_chunk30 (P0 P1 P2 P3 P4 P5 : Vec F S1x32x32 .f32) :
    k0_pay214 (k0_pay212 P4 (k0_pay7 P0 P1 P2 P3)) (k0_pay213 P5 (k0_pay8 P0 P1 P2 P3))
      = chunkRe ![0, 0, 30, 0] slices_S1x32x32x32_o0_0_30_0_S1x32x1x32 (k0_pay7 P0 P1 P2 P3) (k0_pay8 P0 P1 P2 P3) P4 P5 := rfl
theorem im_chunk30 (P0 P1 P2 P3 P4 P5 : Vec F S1x32x32 .f32) :
    k0_pay215 (k0_pay208 (k0_pay7 P0 P1 P2 P3)) (k0_pay209 (k0_pay8 P0 P1 P2 P3)) (k0_pay210 P4) (k0_pay211 P5)
      = chunkIm ![0, 0, 30, 0] slices_S1x32x32x32_o0_0_30_0_S1x32x1x32 (k0_pay7 P0 P1 P2 P3) (k0_pay8 P0 P1 P2 P3) P4 P5 := rfl

theorem re_chunk31 (P0 P1 P2 P3 P4 P5 : Vec F S1x32x32 .f32) :
    k0_pay1 (k0_pay220 P4 P5 (k0_pay7 P0 P1 P2 P3) (k0_pay8 P0 P1 P2 P3))
      = chunkRe ![0, 0, 31, 0] slices_S1x32x32x32_o0_0_31_0_S1x32x1x32 (k0_pay7 P0 P1 P2 P3) (k0_pay8 P0 P1 P2 P3) P4 P5 := rfl
theorem im_chunk31 (P0 P1 P2 P3 P4 P5 : Vec F S1x32x32 .f32) :
    k0_pay2 (k0_pay221 P4 P5 (k0_pay7 P0 P1 P2 P3) (k0_pay8 P0 P1 P2 P3))
      = chunkIm ![0, 0, 31, 0] slices_S1x32x32x32_o0_0_31_0_S1x32x1x32 (k0_pay7 P0 P1 P2 P3) (k0_pay8 P0 P1 P2 P3) P4 P5 := rfl

/-! ## The block the body leaves -/

theorem zero_offsets : (![0, 0, 0] : Fin 3 → Nat) = fun _ => 0 := funext fun a => by fin_cases a <;> rfl

/-- The 32 chunks stored into the first result's block, taken together, are the real part of the three-fold product of the loaded blocks: chunk k covers positions k·1024 … k·1024 + 1023, and the chunks tile the block. -/
theorem body_re (P0 P1 P2 P3 P4 P5 : Vec F S1x32x32 .f32) : out0_6 P0 P1 P2 P3 P4 P5 = blockRe P0 P1 P2 P3 P4 P5 := by
  funext y
  unfold out0_6
  simp only [View.ld_unit_zero (S := S1x32x32) zero_offsets]
  refine View.canon_apply_of_pieces (blockRe P0 P1 P2 P3 P4 P5) _ ?_ y (cover0_6 _ _ _ _ _ _ _ _ _ _ _ _ _ _ _ _ _ _ _ _ _ _ _ _ _ _ _ _ _ _ _ _ y)
  intro pc hpc
  rcases List.mem_cons.mp hpc with rfl | hpc
  · exact fun x => (congrFun (re_chunk31 P0 P1 P2 P3 P4 P5) x).trans
      (chunkRe_apply 31 (by omega) _ P0 P1 P2 P3 P4 P5 x (r0_32.emb x) 31744 rfl rfl rfl rfl)
  rcases List.mem_cons.mp hpc with rfl | hpc
  · exact fun x => (congrFun (re_chunk30 P0 P1 P2 P3 P4 P5) x).trans
      (chunkRe_apply 30 (by omega) _ P0 P1 P2 P3 P4 P5 x (r0_31.emb x) 30720 rfl rfl rfl rfl)
  rcases List.mem_cons.mp hpc with rfl | hpc
  · exact fun x => (congrFun (re_chunk29 P0 P1 P2 P3 P4 P5) x).trans
      (chunkRe_apply 29 (by omega) _ P0 P1 P2 P3 P4 P5 x (r0_30.emb x) 29696 rfl rfl rfl rfl)
  rcases List.mem_cons.mp hpc with rfl | hpc
  · exact fun x => (congrFun (re_chunk28 P0 P1 P2 P3 P4 P5) x).trans
      (chunkRe_apply 28 (by omega) _ P0 P1 P2 P3 P4 P5 x (r0_29.emb x) 28672 rfl rfl rfl rfl)
  rcases List.mem_cons.mp hpc with rfl | hpc
  · exact fun x => (congrFun (re_chunk27 P0 P1 P2 P3 P4 P5) x).trans
      (chunkRe_apply 27 (by omega) _ P0 P1 P2 P3 P4 P5 x (r0_28.emb x) 27648 rfl rfl rfl rfl)
  rcases List.mem_cons.mp hpc with rfl | hpc
  · exact fun x => (congrFun (re_chunk26 P0 P1 P2 P3 P4 P5) x).trans
      (chunkRe_apply 26 (by omega) _ P0 P1 P2 P3 P4 P5 x (r0_27.emb x) 26624 rfl rfl rfl rfl)
  rcases List.mem_cons.mp hpc with rfl | hpc
  · exact fun x => (congrFun (re_chunk25 P0 P1 P2 P3 P4 P5) x).trans
      (chunkRe_apply 25 (by omega) _ P0 P1 P2 P3 P4 P5 x (r0_26.emb x) 25600 rfl rfl rfl rfl)
  rcases List.mem_cons.mp hpc with rfl | hpc
  · exact fun x => (congrFun (re_chunk24 P0 P1 P2 P3 P4 P5) x).trans
      (chunkRe_apply 24 (by omega) _ P0 P1 P2 P3 P4 P5 x (r0_25.emb x) 24576 rfl rfl rfl rfl)
  rcases List.mem_cons.mp hpc with rfl | hpc
  · exact fun x => (congrFun (re_chunk23 P0 P1 P2 P3 P4 P5) x).trans
      (chunkRe_apply 23 (by omega) _ P0 P1 P2 P3 P4 P5 x (r0_24.emb x) 23552 rfl rfl rfl rfl)
  rcases List.mem_cons.mp hpc with rfl | hpc
  · exact fun x => (congrFun (re_chunk22 P0 P1 P2 P3 P4 P5) x).trans
      (chunkRe_apply 22 (by omega) _ P0 P1 P2 P3 P4 P5 x (r0_23.emb x) 22528 rfl rfl rfl rfl)
  rcases List.mem_cons.mp hpc with rfl | hpc
  · exact fun x => (congrFun (re_chunk21 P0 P1 P2 P3 P4 P5) x).trans
      (chunkRe_apply 21 (by omega) _ P0 P1 P2 P3 P4 P5 x (r0_22.emb x) 21504 rfl rfl rfl rfl)
  rcases List.mem_cons.mp hpc with rfl | hpc
  · exact fun x => (congrFun (re_chunk20 P0 P1 P2 P3 P4 P5) x).trans
      (chunkRe_apply 20 (by omega) _ P0 P1 P2 P3 P4 P5 x (r0_21.emb x) 20480 rfl rfl rfl rfl)
  rcases List.mem_cons.mp hpc with rfl | hpc
  · exact fun x => (congrFun (re_chunk19 P0 P1 P2 P3 P4 P5) x).trans
      (chunkRe_apply 19 (by omega) _ P0 P1 P2 P3 P4 P5 x (r0_20.emb x) 19456 rfl rfl rfl rfl)
  rcases List.mem_cons.mp hpc with rfl | hpc
  · exact fun x => (congrFun (re_chunk18 P0 P1 P2 P3 P4 P5) x).trans
      (chunkRe_apply 18 (by omega) _ P0 P1 P2 P3 P4 P5 x (r0_19.emb x) 18432 rfl rfl rfl rfl)
  rcases List.mem_cons.mp hpc with rfl | hpc
  · exact fun x => (congrFun (re_chunk17 P0 P1 P2 P3 P4 P5) x).trans
      (chunkRe_apply 17 (by omega) _ P0 P1 P2 P3 P4 P5 x (r0_18.emb x) 17408 rfl rfl rfl rfl)
  rcases List.mem_cons.mp hpc with rfl | hpc
  · exact fun x => (congrFun (re_chunk16 P0 P1 P2 P3 P4 P5) x).trans
      (chunkRe_apply 16 (by omega) _ P0 P1 P2 P3 P4 P5 x (r0_17.emb x) 16384 rfl rfl rfl rfl)
  rcases List.mem_cons.mp hpc with rfl | hpc
  · exact fun x => (congrFun (re_chunk15 P0 P1 P2 P3 P4 P5) x).trans
      (chunkRe_apply 15 (by omega) _ P0 P1 P2 P3 P4 P5 x (r0_16.emb x) 15360 rfl rfl rfl rfl)
  rcases List.mem_cons.mp hpc with rfl | hpc
  · exact fun x => (congrFun (re_chunk14 P0 P1 P2 P3 P4 P5) x).trans
      (chunkRe_apply 14 (by omega) _ P0 P1 P2 P3 P4 P5 x (r0_15.emb x) 14336 rfl rfl rfl rfl)
  rcases List.mem_cons.mp hpc with rfl | hpc
  · exact fun x => (congrFun (re_chunk13 P0 P1 P2 P3 P4 P5) x).trans
      (chunkRe_apply 13 (by omega) _ P0 P1 P2 P3 P4 P5 x (r0_14.emb x) 13312 rfl rfl rfl rfl)
  rcases List.mem_cons.mp hpc with rfl | hpc
  · exact fun x => (congrFun (re_chunk12 P0 P1 P2 P3 P4 P5) x).trans
      (chunkRe_apply 12 (by omega) _ P0 P1 P2 P3 P4 P5 x (r0_13.emb x) 12288 rfl rfl rfl rfl)
  rcases List.mem_cons.mp hpc with rfl | hpc
  · exact fun x => (congrFun (re_chunk11 P0 P1 P2 P3 P4 P5) x).trans
      (chunkRe_apply 11 (by omega) _ P0 P1 P2 P3 P4 P5 x (r0_12.emb x) 11264 rfl rfl rfl rfl)
  rcases List.mem_cons.mp hpc with rfl | hpc
  · exact fun x => (congrFun (re_chunk10 P0 P1 P2 P3 P4 P5) x).trans
      (chunkRe_apply 10 (by omega) _ P0 P1 P2 P3 P4 P5 x (r0_11.emb x) 10240 rfl rfl rfl rfl)
  rcases List.mem_cons.mp hpc with rfl | hpc
  · exact fun x => (congrFun (re_chunk9 P0 P1 P2 P3 P4 P5) x).trans
      (chunkRe_apply 9 (by omega) _ P0 P1 P2 P3 P4 P5 x (r0_10.emb x) 9216 rfl rfl rfl rfl)
  rcases List.mem_cons.mp hpc with rfl | hpc
  · exact fun x => (congrFun (re_chunk8 P0 P1 P2 P3 P4 P5) x).trans
      (chunkRe_apply 8 (by omega) _ P0 P1 P2 P3 P4 P5 x (r0_9.emb x) 8192 rfl rfl rfl rfl)
  rcases List.mem_cons.mp hpc with rfl | hpc
  · exact fun x => (congrFun (re_chunk7 P0 P1 P2 P3 P4 P5) x).trans
      (chunkRe_apply 7 (by omega) _ P0 P1 P2 P3 P4 P5 x (r0_8.emb x) 7168 rfl rfl rfl rfl)
  rcases List.mem_cons.mp hpc with rfl | hpc
  · exact fun x => (congrFun (re_chunk6 P0 P1 P2 P3 P4 P5) x).trans
      (chunkRe_apply 6 (by omega) _ P0 P1 P2 P3 P4 P5 x (r0_7.emb x) 6144 rfl rfl rfl rfl)
  rcases List.mem_cons.mp hpc with rfl | hpc
  · exact fun x => (congrFun (re_chunk5 P0 P1 P2 P3 P4 P5) x).trans
      (chunkRe_apply 5 (by omega) _ P0 P1 P2 P3 P4 P5 x (r0_6.emb x) 5120 rfl rfl rfl rfl)
  rcases List.mem_cons.mp hpc with rfl | hpc
  · exact fun x => (congrFun (re_chunk4 P0 P1 P2 P3 P4 P5) x).trans
      (chunkRe_apply 4 (by omega) _ P0 P1 P2 P3 P4 P5 x (r0_5.emb x) 4096 rfl rfl rfl rfl)
  rcases List.mem_cons.mp hpc with rfl | hpc
  · exact fun x => (congrFun (re_chunk3 P0 P1 P2 P3 P4 P5) x).trans
      (chunkRe_apply 3 (by omega) _ P0 P1 P2 P3 P4 P5 x (r0_4.emb x) 3072 rfl rfl rfl rfl)
  rcases List.mem_cons.mp hpc with rfl | hpc
  · exact fun x => (congrFun (re_chunk2 P0 P1 P2 P3 P4 P5) x).trans
      (chunkRe_apply 2 (by omega) _ P0 P1 P2 P3 P4 P5 x (r0_3.emb x) 2048 rfl rfl rfl rfl)
  rcases List.mem_cons.mp hpc with rfl | hpc
  · exact fun x => (congrFun (re_chunk1 P0 P1 P2 P3 P4 P5) x).trans
      (chunkRe_apply 1 (by omega) _ P0 P1 P2 P3 P4 P5 x (r0_2.emb x) 1024 rfl rfl rfl rfl)
  rcases List.mem_cons.mp hpc with rfl | hpc
  · exact fun x => (congrFun (re_chunk0 P0 P1 P2 P3 P4 P5) x).trans
      (chunkRe_apply 0 (by omega) _ P0 P1 P2 P3 P4 P5 x (r0_1.emb x) 0 rfl rfl rfl rfl)
  nomatch hpc

/-- The 32 chunks stored into the second result's block are the imaginary part. -/
theorem body_im (P0 P1 P2 P3 P4 P5 : Vec F S1x32x32 .f32) : out0_7 P0 P1 P2 P3 P4 P5 = blockIm P0 P1 P2 P3 P4 P5 := by
  funext y
  unfold out0_7
  simp only [View.ld_unit_zero (S := S1x32x32) zero_offsets]
  refine View.canon_apply_of_pieces (blockIm P0 P1 P2 P3 P4 P5) _ ?_ y (cover0_7 _ _ _ _ _ _ _ _ _ _ _ _ _ _ _ _ _ _ _ _ _ _ _ _ _ _ _ _ _ _ _ _ y)
  intro pc hpc
  rcases List.mem_cons.mp hpc with rfl | hpc
  · exact fun x => (congrFun (im_chunk31 P0 P1 P2 P3 P4 P5) x).trans
      (chunkIm_apply 31 (by omega) _ P0 P1 P2 P3 P4 P5 x (r0_32.emb x) 31744 rfl rfl rfl rfl)
  rcases List.mem_cons.mp hpc with rfl | hpc
  · exact fun x => (congrFun (im_chunk30 P0 P1 P2 P3 P4 P5) x).trans
      (chunkIm_apply 30 (by omega) _ P0 P1 P2 P3 P4 P5 x (r0_31.emb x) 30720 rfl rfl rfl rfl)
  rcases List.mem_cons.mp hpc with rfl | hpc
  · exact fun x => (congrFun (im_chunk29 P0 P1 P2 P3 P4 P5) x).trans
      (chunkIm_apply 29 (by omega) _ P0 P1 P2 P3 P4 P5 x (r0_30.emb x) 29696 rfl rfl rfl rfl)
  rcases List.mem_cons.mp hpc with rfl | hpc
  · exact fun x => (congrFun (im_chunk28 P0 P1 P2 P3 P4 P5) x).trans
      (chunkIm_apply 28 (by omega) _ P0 P1 P2 P3 P4 P5 x (r0_29.emb x) 28672 rfl rfl rfl rfl)
  rcases List.mem_cons.mp hpc with rfl | hpc
  · exact fun x => (congrFun (im_chunk27 P0 P1 P2 P3 P4 P5) x).trans
      (chunkIm_apply 27 (by omega) _ P0 P1 P2 P3 P4 P5 x (r0_28.emb x) 27648 rfl rfl rfl rfl)
  rcases List.mem_cons.mp hpc with rfl | hpc
  · exact fun x => (congrFun (im_chunk26 P0 P1 P2 P3 P4 P5) x).trans
      (chunkIm_apply 26 (by omega) _ P0 P1 P2 P3 P4 P5 x (r0_27.emb x) 26624 rfl rfl rfl rfl)
  rcases List.mem_cons.mp hpc with rfl | hpc
  · exact fun x => (congrFun (im_chunk25 P0 P1 P2 P3 P4 P5) x).trans
      (chunkIm_apply 25 (by omega) _ P0 P1 P2 P3 P4 P5 x (r0_26.emb x) 25600 rfl rfl rfl rfl)
  rcases List.mem_cons.mp hpc with rfl | hpc
  · exact fun x => (congrFun (im_chunk24 P0 P1 P2 P3 P4 P5) x).trans
      (chunkIm_apply 24 (by omega) _ P0 P1 P2 P3 P4 P5 x (r0_25.emb x) 24576 rfl rfl rfl rfl)
  rcases List.mem_cons.mp hpc with rfl | hpc
  · exact fun x => (congrFun (im_chunk23 P0 P1 P2 P3 P4 P5) x).trans
      (chunkIm_apply 23 (by omega) _ P0 P1 P2 P3 P4 P5 x (r0_24.emb x) 23552 rfl rfl rfl rfl)
  rcases List.mem_cons.mp hpc with rfl | hpc
  · exact fun x => (congrFun (im_chunk22 P0 P1 P2 P3 P4 P5) x).trans
      (chunkIm_apply 22 (by omega) _ P0 P1 P2 P3 P4 P5 x (r0_23.emb x) 22528 rfl rfl rfl rfl)
  rcases List.mem_cons.mp hpc with rfl | hpc
  · exact fun x => (congrFun (im_chunk21 P0 P1 P2 P3 P4 P5) x).trans
      (chunkIm_apply 21 (by omega) _ P0 P1 P2 P3 P4 P5 x (r0_22.emb x) 21504 rfl rfl rfl rfl)
  rcases List.mem_cons.mp hpc with rfl | hpc
  · exact fun x => (congrFun (im_chunk20 P0 P1 P2 P3 P4 P5) x).trans
      (chunkIm_apply 20 (by omega) _ P0 P1 P2 P3 P4 P5 x (r0_21.emb x) 20480 rfl rfl rfl rfl)
  rcases List.mem_cons.mp hpc with rfl | hpc
  · exact fun x => (congrFun (im_chunk19 P0 P1 P2 P3 P4 P5) x).trans
      (chunkIm_apply 19 (by omega) _ P0 P1 P2 P3 P4 P5 x (r0_20.emb x) 19456 rfl rfl rfl rfl)
  rcases List.mem_cons.mp hpc with rfl | hpc
  · exact fun x => (congrFun (im_chunk18 P0 P1 P2 P3 P4 P5) x).trans
      (chunkIm_apply 18 (by omega) _ P0 P1 P2 P3 P4 P5 x (r0_19.emb x) 18432 rfl rfl rfl rfl)
  rcases List.mem_cons.mp hpc with rfl | hpc
  · exact fun x => (congrFun (im_chunk17 P0 P1 P2 P3 P4 P5) x).trans
      (chunkIm_apply 17 (by omega) _ P0 P1 P2 P3 P4 P5 x (r0_18.emb x) 17408 rfl rfl rfl rfl)
  rcases List.mem_cons.mp hpc with rfl | hpc
  · exact fun x => (congrFun (im_chunk16 P0 P1 P2 P3 P4 P5) x).trans
      (chunkIm_apply 16 (by omega) _ P0 P1 P2 P3 P4 P5 x (r0_17.emb x) 16384 rfl rfl rfl rfl)
  rcases List.mem_cons.mp hpc with rfl | hpc
  · exact fun x => (congrFun (im_chunk15 P0 P1 P2 P3 P4 P5) x).trans
      (chunkIm_apply 15 (by omega) _ P0 P1 P2 P3 P4 P5 x (r0_16.emb x) 15360 rfl rfl rfl rfl)
  rcases List.mem_cons.mp hpc with rfl | hpc
  · exact fun x => (congrFun (im_chunk14 P0 P1 P2 P3 P4 P5) x).trans
      (chunkIm_apply 14 (by omega) _ P0 P1 P2 P3 P4 P5 x (r0_15.emb x) 14336 rfl rfl rfl rfl)
  rcases List.mem_cons.mp hpc with rfl | hpc
  · exact fun x => (congrFun (im_chunk13 P0 P1 P2 P3 P4 P5) x).trans
      (chunkIm_apply 13 (by omega) _ P0 P1 P2 P3 P4 P5 x (r0_14.emb x) 13312 rfl rfl rfl rfl)
  rcases List.mem_cons.mp hpc with rfl | hpc
  · exact fun x => (congrFun (im_chunk12 P0 P1 P2 P3 P4 P5) x).trans
      (chunkIm_apply 12 (by omega) _ P0 P1 P2 P3 P4 P5 x (r0_13.emb x) 12288 rfl rfl rfl rfl)
  rcases List.mem_cons.mp hpc with rfl | hpc
  · exact fun x => (congrFun (im_chunk11 P0 P1 P2 P3 P4 P5) x).trans
      (chunkIm_apply 11 (by omega) _ P0 P1 P2 P3 P4 P5 x (r0_12.emb x) 11264 rfl rfl rfl rfl)
  rcases List.mem_cons.mp hpc with rfl | hpc
  · exact fun x => (congrFun (im_chunk10 P0 P1 P2 P3 P4 P5) x).trans
      (chunkIm_apply 10 (by omega) _ P0 P1 P2 P3 P4 P5 x (r0_11.emb x) 10240 rfl rfl rfl rfl)
  rcases List.mem_cons.mp hpc with rfl | hpc
  · exact fun x => (congrFun (im_chunk9 P0 P1 P2 P3 P4 P5) x).trans
      (chunkIm_apply 9 (by omega) _ P0 P1 P2 P3 P4 P5 x (r0_10.emb x) 9216 rfl rfl rfl rfl)
  rcases List.mem_cons.mp hpc with rfl | hpc
  · exact fun x => (congrFun (im_chunk8 P0 P1 P2 P3 P4 P5) x).trans
      (chunkIm_apply 8 (by omega) _ P0 P1 P2 P3 P4 P5 x (r0_9.emb x) 8192 rfl rfl rfl rfl)
  rcases List.mem_cons.mp hpc with rfl | hpc
  · exact fun x => (congrFun (im_chunk7 P0 P1 P2 P3 P4 P5) x).trans
      (chunkIm_apply 7 (by omega) _ P0 P1 P2 P3 P4 P5 x (r0_8.emb x) 7168 rfl rfl rfl rfl)
  rcases List.mem_cons.mp hpc with rfl | hpc
  · exact fun x => (congrFun (im_chunk6 P0 P1 P2 P3 P4 P5) x).trans
      (chunkIm_apply 6 (by omega) _ P0 P1 P2 P3 P4 P5 x (r0_7.emb x) 6144 rfl rfl rfl rfl)
  rcases List.mem_cons.mp hpc with rfl | hpc
  · exact fun x => (congrFun (im_chunk5 P0 P1 P2 P3 P4 P5) x).trans
      (chunkIm_apply 5 (by omega) _ P0 P1 P2 P3 P4 P5 x (r0_6.emb x) 5120 rfl rfl rfl rfl)
  rcases List.mem_cons.mp hpc with rfl | hpc
  · exact fun x => (congrFun (im_chunk4 P0 P1 P2 P3 P4 P5) x).trans
      (chunkIm_apply 4 (by omega) _ P0 P1 P2 P3 P4 P5 x (r0_5.emb x) 4096 rfl rfl rfl rfl)
  rcases List.mem_cons.mp hpc with rfl | hpc
  · exact fun x => (congrFun (im_chunk3 P0 P1 P2 P3 P4 P5) x).trans
      (chunkIm_apply 3 (by omega) _ P0 P1 P2 P3 P4 P5 x (r0_4.emb x) 3072 rfl rfl rfl rfl)
  rcases List.mem_cons.mp hpc with rfl | hpc
  · exact fun x => (congrFun (im_chunk2 P0 P1 P2 P3 P4 P5) x).trans
      (chunkIm_apply 2 (by omega) _ P0 P1 P2 P3 P4 P5 x (r0_3.emb x) 2048 rfl rfl rfl rfl)
  rcases List.mem_cons.mp hpc with rfl | hpc
  · exact fun x => (congrFun (im_chunk1 P0 P1 P2 P3 P4 P5) x).trans
      (chunkIm_apply 1 (by omega) _ P0 P1 P2 P3 P4 P5 x (r0_2.emb x) 1024 rfl rfl rfl rfl)
  rcases List.mem_cons.mp hpc with rfl | hpc
  · exact fun x => (congrFun (im_chunk0 P0 P1 P2 P3 P4 P5) x).trans
      (chunkIm_apply 0 (by omega) _ P0 P1 P2 P3 P4 P5 x (r0_1.emb x) 0 rfl rfl rfl rfl)
  nomatch hpc

end Cert.KernelIdeal.Body

end
-- ==== Proof.KernelBlocks.lean ====
/-
  What the kernel leaves in its two result arrays, for any float type.

  The grid has 8 × 4 points; point (b, s) works on batch entry b and on the 32 positions 32·s … 32·s + 31. Each of the six
  input windows hands the body the [1, 32, 32] block of its array there, and each of the two output windows takes back a
  [1, 32, 32768] block, which is the three-fold product of the loaded blocks with the first factor read at d / 1024, the
  second at d / 32 mod 32 and the third at d mod 32 (d the position on the long axis). Since d / 1024 = (d / 32) / 32 and
  d / 32 mod 32 = (d / 32) mod 32, these are the slow and fast parts the specification is written with, so every point
  writes back exactly its own block of the specification's array; the 32 blocks tile the array; and the arrays end holding
  the specification's values, the arguments unchanged.
-/
import proofs.«133994_j54838142435818_2_alg».proof.Proof.Gen.KernelIdeal.Frame
import proofs.«133994_j54838142435818_2_alg».proof.Proof.KernelBody
import proofs.«133994_j54838142435818_2_alg».proof.Proof.Chain
import Idealize.ShloMosaic.Lib.Pipeline.Value

noncomputable section

namespace Cert.KernelIdeal.Blocks

open Cert.KernelIdeal Cert.KernelIdeal.Gen Cert.KernelIdeal.Body Cert.Chain
open Idealize.ShloMosaic Idealize.ShloMosaic.TcCoe Idealize.SL.Sem
open Idealize.ShloMosaic.Pipeline (Dat)

variable {F : FTy → Type} [FloatOps F]
variable (m : (ℓ : Loc nD τ sig) → Buf (Elt F) ℓ) (ρ : Dev nD → PrngReg)

/-! ## Where a block sits in its array

All eight windows move together: at point (b, s) every window's block index is (b, s, 0). -/

theorem grid_blocks0 : ∀ t : Fin cfg0.N, win0_0.index t (0 : Fin 3) = win0_6.index t (0 : Fin 3)
    ∧ win0_0.index t (1 : Fin 3) = win0_6.index t (1 : Fin 3) ∧ win0_0.index t (2 : Fin 3) = 0 ∧ win0_6.index t (2 : Fin 3) = 0 :=
  (by decide +kernel : ∀ t : Fin grid0.N, _)

theorem grid_blocks1 : ∀ t : Fin cfg0.N, win0_1.index t (0 : Fin 3) = win0_6.index t (0 : Fin 3)
    ∧ win0_1.index t (1 : Fin 3) = win0_6.index t (1 : Fin 3) ∧ win0_1.index t (2 : Fin 3) = 0 ∧ win0_6.index t (2 : Fin 3) = 0 :=
  (by decide +kernel : ∀ t : Fin grid0.N, _)

theorem grid_blocks2 : ∀ t : Fin cfg0.N, win0_2.index t (0 : Fin 3) = win0_6.index t (0 : Fin 3)
    ∧ win0_2.index t (1 : Fin 3) = win0_6.index t (1 : Fin 3) ∧ win0_2.index t (2 : Fin 3) = 0 ∧ win0_6.index t (2 : Fin 3) = 0 :=
  (by decide +kernel : ∀ t : Fin grid0.N, _)

theorem grid_blocks3 : ∀ t : Fin cfg0.N, win0_3.index t (0 : Fin 3) = win0_6.index t (0 : Fin 3)
    ∧ win0_3.index t (1 : Fin 3) = win0_6.index t (1 : Fin 3) ∧ win0_3.index t (2 : Fin 3) = 0 ∧ win0_6.index t (2 : Fin 3) = 0 :=
  (by decide +kernel : ∀ t : Fin grid0.N, _)

theorem grid_blocks4 : ∀ t : Fin cfg0.N, win0_4.index t (0 : Fin 3) = win0_6.index t (0 : Fin 3)
    ∧ win0_4.index t (1 : Fin 3) = win0_6.index t (1 : Fin 3) ∧ win0_4.index t (2 : Fin 3) = 0 ∧ win0_6.index t (2 : Fin 3) = 0 :=
  (by decide +kernel : ∀ t : Fin grid0.N, _)

theorem grid_blocks5 : ∀ t : Fin cfg0.N, win0_5.index t (0 : Fin 3) = win0_6.index t (0 : Fin 3)
    ∧ win0_5.index t (1 : Fin 3) = win0_6.index t (1 : Fin 3) ∧ win0_5.index t (2 : Fin 3) = 0 ∧ win0_6.index t (2 : Fin 3) = 0 :=
  (by decide +kernel : ∀ t : Fin grid0.N, _)

theorem grid_blocks7 : ∀ t : Fin cfg0.N, win0_7.index t (0 : Fin 3) = win0_6.index t (0 : Fin 3)
    ∧ win0_7.index t (1 : Fin 3) = win0_6.index t (1 : Fin 3) ∧ win0_7.index t (2 : Fin 3) = 0 ∧ win0_6.index t (2 : Fin 3) = 0 :=
  (by decide +kernel : ∀ t : Fin grid0.N, _)

/-- Every pair (b, s) is the block index of some grid point. -/
theorem every_block : ∀ (q0 : Fin 8) (q1 : Fin 4), ∃ t : Fin cfg0.N, win0_6.index t = ![q0.val, q1.val, 0] :=
  (by decide +kernel : ∀ (q0 : Fin 8) (q1 : Fin 4), ∃ t : Fin grid0.N, win0_6.index t = ![q0.val, q1.val, 0])

/-- The block of the first factor's real part at d / 1024, d the position on the output block's long axis, is the array at the slow part of the slow part of the output's array index: (d / 32) / 32 = d / 1024. -/
theorem read0 (c : Dev nD) (t : Fin cfg0.N) (y : S1x32x32768.Idx) :
    iblk m c 0 t (at1st y) = V m c main_arg0 (slow2 (slow3 (((cfg0.win 6).blk t).view.emb y))) := by
  obtain ⟨e0, e1, e2, z2⟩ := grid_blocks0 t
  have hy0 : (y 0).val < 1 := (y 0).isLt
  have hy2 : (y 2).val < 32768 := (y 2).isLt
  show V m c main_arg0 (((cfg0.win 0).blk t).view.emb (at1st y)) = _
  refine congrArg (V m c main_arg0) ?_
  funext a; apply Fin.ext
  match a with
  | ⟨0, _⟩ => show win0_0.index t (0 : Fin 3) * 1 + 1 * (y 0).val = win0_6.index t (0 : Fin 3) * 1 + 1 * (y 0).val; omega
  | ⟨1, _⟩ => show win0_0.index t (1 : Fin 3) * 32 + 1 * (y 1).val = win0_6.index t (1 : Fin 3) * 32 + 1 * (y 1).val; omega
  | ⟨2, _⟩ => show win0_0.index t (2 : Fin 3) * 32 + 1 * ((y 2).val / 1024) = (win0_6.index t (2 : Fin 3) * 32768 + 1 * (y 2).val) / 32 / 32; omega

/-- The same for the first factor's imaginary part. -/
theorem read1 (c : Dev nD) (t : Fin cfg0.N) (y : S1x32x32768.Idx) :
    iblk m c 1 t (at1st y) = V m c main_arg1 (slow2 (slow3 (((cfg0.win 6).blk t).view.emb y))) := by
  obtain ⟨e0, e1, e2, z2⟩ := grid_blocks1 t
  have hy0 : (y 0).val < 1 := (y 0).isLt
  have hy2 : (y 2).val < 32768 := (y 2).isLt
  show V m c main_arg1 (((cfg0.win 1).blk t).view.emb (at1st y)) = _
  refine congrArg (V m c main_arg1) ?_
  funext a; apply Fin.ext
  match a with
  | ⟨0, _⟩ => show win0_1.index t (0 : Fin 3) * 1 + 1 * (y 0).val = win0_6.index t (0 : Fin 3) * 1 + 1 * (y 0).val; omega
  | ⟨1, _⟩ => show win0_1.index t (1 : Fin 3) * 32 + 1 * (y 1).val = win0_6.index t (1 : Fin 3) * 32 + 1 * (y 1).val; omega
  | ⟨2, _⟩ => show win0_1.index t (2 : Fin 3) * 32 + 1 * ((y 2).val / 1024) = (win0_6.index t (2 : Fin 3) * 32768 + 1 * (y 2).val) / 32 / 32; omega

/-- The block of the second factor's real part at d / 32 mod 32 is the array at the fast part of the slow part. -/
theorem read2 (c : Dev nD) (t : Fin cfg0.N) (y : S1x32x32768.Idx) :
    iblk m c 2 t (at2nd y) = V m c main_arg2 (fast2 (slow3 (((cfg0.win 6).blk t).view.emb y))) := by
  obtain ⟨e0, e1, e2, z2⟩ := grid_blocks2 t
  have hy0 : (y 0).val < 1 := (y 0).isLt
  have hy2 : (y 2).val < 32768 := (y 2).isLt
  show V m c main_arg2 (((cfg0.win 2).blk t).view.emb (at2nd y)) = _
  refine congrArg (V m c main_arg2) ?_
  funext a; apply Fin.ext
  match a with
  | ⟨0, _⟩ => show win0_2.index t (0 : Fin 3) * 1 + 1 * (y 0).val = win0_6.index t (0 : Fin 3) * 1 + 1 * (y 0).val; omega
  | ⟨1, _⟩ => show win0_2.index t (1 : Fin 3) * 32 + 1 * (y 1).val = win0_6.index t (1 : Fin 3) * 32 + 1 * (y 1).val; omega
  | ⟨2, _⟩ => show win0_2.index t (2 : Fin 3) * 32 + 1 * ((y 2).val / 32 % 32) = (win0_6.index t (2 : Fin 3) * 32768 + 1 * (y 2).val) / 32 % 32; omega

/-- The same for the second factor's imaginary part. -/
theorem read3 (c : Dev nD) (t : Fin cfg0.N) (y : S1x32x32768.Idx) :
    iblk m c 3 t (at2nd y) = V m c main_arg3 (fast2 (slow3 (((cfg0.win 6).blk t).view.emb y))) := by
  obtain ⟨e0, e1, e2, z2⟩ := grid_blocks3 t
  have hy0 : (y 0).val < 1 := (y 0).isLt
  have hy2 : (y 2).val < 32768 := (y 2).isLt
  show V m c main_arg3 (((cfg0.win 3).blk t).view.emb (at2nd y)) = _
  refine congrArg (V m c main_arg3) ?_
  funext a; apply Fin.ext
  match a with
  | ⟨0, _⟩ => show win0_3.index t (0 : Fin 3) * 1 + 1 * (y 0).val = win0_6.index t (0 : Fin 3) * 1 + 1 * (y 0).val; omega
  | ⟨1, _⟩ => show win0_3.index t (1 : Fin 3) * 32 + 1 * (y 1).val = win0_6.index t (1 : Fin 3) * 32 + 1 * (y 1).val; omega
  | ⟨2, _⟩ => show win0_3.index t (2 : Fin 3) * 32 + 1 * ((y 2).val / 32 % 32) = (win0_6.index t (2 : Fin 3) * 32768 + 1 * (y 2).val) / 32 % 32; omega

/-- The block of the third factor's real part at d mod 32 is the array at the fast part. -/
theorem read4 (c : Dev nD) (t : Fin cfg0.N) (y : S1x32x32768.Idx) :
    iblk m c 4 t (at3rd y) = V m c main_arg4 (fast3 (((cfg0.win 6).blk t).view.emb y)) := by
  obtain ⟨e0, e1, e2, z2⟩ := grid_blocks4 t
  have hy0 : (y 0).val < 1 := (y 0).isLt
  have hy2 : (y 2).val < 32768 := (y 2).isLt
  show V m c main_arg4 (((cfg0.win 4).blk t).view.emb (at3rd y)) = _
  refine congrArg (V m c main_arg4) ?_
  funext a; apply Fin.ext
  match a with
  | ⟨0, _⟩ => show win0_4.index t (0 : Fin 3) * 1 + 1 * (y 0).val = win0_6.index t (0 : Fin 3) * 1 + 1 * (y 0).val; omega
  | ⟨1, _⟩ => show win0_4.index t (1 : Fin 3) * 32 + 1 * (y 1).val = win0_6.index t (1 : Fin 3) * 32 + 1 * (y 1).val; omega
  | ⟨2, _⟩ => show win0_4.index t (2 : Fin 3) * 32 + 1 * ((y 2).val % 32) = (win0_6.index t (2 : Fin 3) * 32768 + 1 * (y 2).val) % 32; omega

/-- The same for the third factor's imaginary part. -/
theorem read5 (c : Dev nD) (t : Fin cfg0.N) (y : S1x32x32768.Idx) :
    iblk m c 5 t (at3rd y) = V m c main_arg5 (fast3 (((cfg0.win 6).blk t).view.emb y)) := by
  obtain ⟨e0, e1, e2, z2⟩ := grid_blocks5 t
  have hy0 : (y 0).val < 1 := (y 0).isLt
  have hy2 : (y 2).val < 32768 := (y 2).isLt
  show V m c main_arg5 (((cfg0.win 5).blk t).view.emb (at3rd y)) = _
  refine congrArg (V m c main_arg5) ?_
  funext a; apply Fin.ext
  match a with
  | ⟨0, _⟩ => show win0_5.index t (0 : Fin 3) * 1 + 1 * (y 0).val = win0_6.index t (0 : Fin 3) * 1 + 1 * (y 0).val; omega
  | ⟨1, _⟩ => show win0_5.index t (1 : Fin 3) * 32 + 1 * (y 1).val = win0_6.index t (1 : Fin 3) * 32 + 1 * (y 1).val; omega
  | ⟨2, _⟩ => show win0_5.index t (2 : Fin 3) * 32 + 1 * ((y 2).val % 32) = (win0_6.index t (2 : Fin 3) * 32768 + 1 * (y 2).val) % 32; omega

/-! ## What a point writes back -/

/-- Point t writes back its block of the real part of the chain of the six argument arrays. -/
theorem flushed_re (c : Dev nD) (t : Fin cfg0.N) :
    (dats m 0 c).flushed 6 t = ((cfg0.win 6).blk t).view.read (Elt F) (re3 (V m c main_arg0) (V m c main_arg1) (V m c main_arg2) (V m c main_arg3) (V m c main_arg4) (V m c main_arg5)) := by
  show (cfg0.win 6).cut (grid0.coords t) ((dats m 0 c).after 6 t) = _
  rw [after0_6, body_re]
  funext y
  show blockRe (iblk m c 0 t) (iblk m c 1 t) (iblk m c 2 t) (iblk m c 3 t) (iblk m c 4 t) (iblk m c 5 t) y = re3 (V m c main_arg0) (V m c main_arg1) (V m c main_arg2) (V m c main_arg3) (V m c main_arg4) (V m c main_arg5) (((cfg0.win 6).blk t).view.emb y)
  unfold blockRe midRe midIm
  rw [read0 m c t y, read1 m c t y, read2 m c t y, read3 m c t y, read4 m c t y, read5 m c t y]
  rfl

/-- Point t writes back its block of the imaginary part of the chain. -/
theorem flushed_im (c : Dev nD) (t : Fin cfg0.N) :
    (dats m 0 c).flushed 7 t = ((cfg0.win 7).blk t).view.read (Elt F) (im3 (V m c main_arg0) (V m c main_arg1) (V m c main_arg2) (V m c main_arg3) (V m c main_arg4) (V m c main_arg5)) := by
  obtain ⟨e0, e1, e2, z2⟩ := grid_blocks7 t
  have same : ∀ y : S1x32x32768.Idx, ((cfg0.win 7).blk t).view.emb y = ((cfg0.win 6).blk t).view.emb y := by
    intro y; funext a; apply Fin.ext
    match a with
    | ⟨0, _⟩ => show win0_7.index t (0 : Fin 3) * 1 + 1 * (y 0).val = win0_6.index t (0 : Fin 3) * 1 + 1 * (y 0).val; omega
    | ⟨1, _⟩ => show win0_7.index t (1 : Fin 3) * 32 + 1 * (y 1).val = win0_6.index t (1 : Fin 3) * 32 + 1 * (y 1).val; omega
    | ⟨2, _⟩ => show win0_7.index t (2 : Fin 3) * 32768 + 1 * (y 2).val = win0_6.index t (2 : Fin 3) * 32768 + 1 * (y 2).val; omega
  show (cfg0.win 7).cut (grid0.coords t) ((dats m 0 c).after 7 t) = _
  rw [after0_7, body_im]
  funext y
  show blockIm (iblk m c 0 t) (iblk m c 1 t) (iblk m c 2 t) (iblk m c 3 t) (iblk m c 4 t) (iblk m c 5 t) y = im3 (V m c main_arg0) (V m c main_arg1) (V m c main_arg2) (V m c main_arg3) (V m c main_arg4) (V m c main_arg5) (((cfg0.win 7).blk t).view.emb y)
  rw [same y]
  unfold blockIm midRe midIm
  rw [read0 m c t y, read1 m c t y, read2 m c t y, read3 m c t y, read4 m c t y, read5 m c t y]
  rfl

/-! ## The blocks tile the arrays -/

/-- An index of the first result's array lies in point t's block iff each coordinate lies in the block's range on its axis. -/
theorem mem_blk6 (t : Fin cfg0.N) (i : S8x128x32768.Idx) :
    i ∈ ((cfg0.win 6).blk t).view.set ↔ ∀ a : Fin 3, win0_6.index t a * S1x32x32768.size a ≤ (i a).val ∧ (i a).val < win0_6.index t a * S1x32x32768.size a + S1x32x32768.size a := by
  show i ∈ ((View.whole main_v0_0).slice (win0_6.rect t)).set ↔ _
  rw [View.set_slice_whole, Rect.mem_set_unit]
  exact Iff.rfl

/-- An index of the second result's array lies in point t's block iff each coordinate lies in the block's range on its axis. -/
theorem mem_blk7 (t : Fin cfg0.N) (i : S8x128x32768.Idx) :
    i ∈ ((cfg0.win 7).blk t).view.set ↔ ∀ a : Fin 3, win0_7.index t a * S1x32x32768.size a ≤ (i a).val ∧ (i a).val < win0_7.index t a * S1x32x32768.size a + S1x32x32768.size a := by
  show i ∈ ((View.whole main_v0_1).slice (win0_7.rect t)).set ↔ _
  rw [View.set_slice_whole, Rect.mem_set_unit]
  exact Iff.rfl

/-- Every index (b, p, d) of a result array lies in the block of the point (b, p / 32). -/
theorem tiled (i : S8x128x32768.Idx) : ∃ t : Fin cfg0.N, win0_6.index t (0 : Fin 3) = (i 0).val
    ∧ win0_6.index t (1 : Fin 3) = (i 1).val / 32 ∧ win0_6.index t (2 : Fin 3) = 0 := by
  have h0 : (i 0).val < 8 := (i 0).isLt
  have h1 : (i 1).val < 128 := (i 1).isLt
  obtain ⟨t, ht⟩ := every_block ⟨(i 0).val, h0⟩ ⟨(i 1).val / 32, by omega⟩
  exact ⟨t, congrFun ht 0, congrFun ht 1, congrFun ht 2⟩

theorem cover_re (i : S8x128x32768.Idx) : ∃ t : Fin cfg0.N, (cfg0.win 6).flush t = true ∧ i ∈ ((cfg0.win 6).blk t).view.set := by
  have h1 : (i 1).val < 128 := (i 1).isLt
  have h2 : (i 2).val < 32768 := (i 2).isLt
  obtain ⟨t, q0, q1, q2⟩ := tiled i
  refine ⟨t, flush0_6 t, ?_⟩
  rw [mem_blk6]
  intro a
  match a with
  | ⟨0, _⟩ => show win0_6.index t (0 : Fin 3) * 1 ≤ (i 0).val ∧ (i 0).val < win0_6.index t (0 : Fin 3) * 1 + 1; omega
  | ⟨1, _⟩ => show win0_6.index t (1 : Fin 3) * 32 ≤ (i 1).val ∧ (i 1).val < win0_6.index t (1 : Fin 3) * 32 + 32; omega
  | ⟨2, _⟩ => show win0_6.index t (2 : Fin 3) * 32768 ≤ (i 2).val ∧ (i 2).val < win0_6.index t (2 : Fin 3) * 32768 + 32768; omega

theorem cover_im (i : S8x128x32768.Idx) : ∃ t : Fin cfg0.N, (cfg0.win 7).flush t = true ∧ i ∈ ((cfg0.win 7).blk t).view.set := by
  have h1 : (i 1).val < 128 := (i 1).isLt
  have h2 : (i 2).val < 32768 := (i 2).isLt
  obtain ⟨t, q0, q1, q2⟩ := tiled i
  obtain ⟨e0, e1, e2, z2⟩ := grid_blocks7 t
  refine ⟨t, flush0_7 t, ?_⟩
  rw [mem_blk7]
  intro a
  match a with
  | ⟨0, _⟩ => show win0_7.index t (0 : Fin 3) * 1 ≤ (i 0).val ∧ (i 0).val < win0_7.index t (0 : Fin 3) * 1 + 1; omega
  | ⟨1, _⟩ => show win0_7.index t (1 : Fin 3) * 32 ≤ (i 1).val ∧ (i 1).val < win0_7.index t (1 : Fin 3) * 32 + 32; omega
  | ⟨2, _⟩ => show win0_7.index t (2 : Fin 3) * 32768 ≤ (i 2).val ∧ (i 2).val < win0_7.index t (2 : Fin 3) * 32768 + 32768; omega

/-! ## The arrays after the run -/

/-- The first result array ends holding the real part of the chain of the argument arrays. -/
theorem final_re (c : Dev nD) : (dats m 0 c).arrAt 6 cfg0.N = re3 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) :=
  (dats m 0 c).arrAt_eq_of_cover 6 (re3 (V m c main_arg0) (V m c main_arg1) (V m c main_arg2) (V m c main_arg3) (V m c main_arg4) (V m c main_arg5)) (fun t _ => flushed_re m c t) cover_re

/-- The second result array ends holding the imaginary part. -/
theorem final_im (c : Dev nD) : (dats m 0 c).arrAt 7 cfg0.N = im3 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) :=
  (dats m 0 c).arrAt_eq_of_cover 7 (im3 (V m c main_arg0) (V m c main_arg1) (V m c main_arg2) (V m c main_arg3) (V m c main_arg4) (V m c main_arg5)) (fun t _ => flushed_im m c t) cover_im

/-- Every weakly fair execution of the kernel's program terminates with the two result arrays at the real and imaginary
    parts of the chain of the argument arrays, and the arguments unchanged: an argument's window only fetches, so its array
    is the one the run started from. -/
theorem run : θ_run defs (onTc (τ := τ) (main (F := F))) ⟨m, fun _ => 0, ρ⟩ fun r => ∀ c : Dev nD,
      r.2.mem ((c : Thread nD τ).loc main_v0_0) = re3 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5))
      ∧ r.2.mem ((c : Thread nD τ).loc main_v0_1) = im3 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5) :=
  (θ_run defs _ _).mono (fun r h c => ⟨((h c).1 6).trans (final_re m c), ((h c).1 7).trans (final_im m c),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c))),
      ((h c).1 2).trans (((dats m 0 c).arrAt_in 2 rfl _).trans ((A_eq m c 2).trans (V_main_arg2 m c))),
      ((h c).1 3).trans (((dats m 0 c).arrAt_in 3 rfl _).trans ((A_eq m c 3).trans (V_main_arg3 m c))),
      ((h c).1 4).trans (((dats m 0 c).arrAt_in 4 rfl _).trans ((A_eq m c 4).trans (V_main_arg4 m c))),
      ((h c).1 5).trans (((dats m 0 c).arrAt_in 5 rfl _).trans ((A_eq m c 5).trans (V_main_arg5 m c)))⟩)
    (run_main m ρ)

end Cert.KernelIdeal.Blocks

end
-- ==== Proof.RefStages.lean ====
/-
  The reference program read stage by stage, at the extended reals.

  The reference carries the real and imaginary parts of the running product in two arrays, starting from arrays of
  ones, and for each of the three factors forms the outer product with that factor and flattens it. Written out,
  the first step multiplies every entry by the constant one before subtracting or adding, and adds the two products of
  the imaginary part in the order (imaginary input first, real input second); over the extended reals 1 · x = x and
  x + y = y + x hold without any restriction, so the first step is (a0 - a1, a0 + a1). The later steps are the complex
  product spelt exactly as in the specification; what is left to check there is that flattening a [.., n, 32] outer
  product sends position j·32 + r to the pair (j, r): the slow and fast parts of the position.
-/
import proofs.«133994_j54838142435818_2_alg».proof.Proof.Gen.ReferenceIdeal.Read
import proofs.«133994_j54838142435818_2_alg».proof.Proof.Chain
import Idealize.ShloMosaic.Lib.IdealHost

noncomputable section

namespace Cert.ReferenceIdeal.Stages

open Cert.ReferenceIdeal Cert.ReferenceIdeal.Gen Cert.ReferenceIdeal.Read Cert.Chain
open Idealize.ShloMosaic Idealize.ShloMosaic.TcCoe Idealize.ShloMosaic.ValueIdx

/-- One real or imaginary input component over the extended reals. -/
abbrev Arr : Type := (⟨S8x128x32, .f32⟩ : BufTy).Contents (Elt Ideal)

/-! ## The first factor: (1 + i)(a0 + i·a1) -/

/-- Flattening a [8, 128, 1, 32] array to [8, 128, 32] and reading the last axis back keeps every index in place. -/
theorem unit_axis_back (r : S8x128x32.Idx) : idx_main_v4 (idx_main_v21 r) = r := by
  have h0 : (r 0).val < 8 := (r 0).isLt
  have h1 : (r 1).val < 128 := (r 1).isLt
  have h2 : (r 2).val < 32 := (r 2).isLt
  funext a; apply Fin.ext
  match a with
  | ⟨0, _⟩ => show (((r 0).val * 128 + (r 1).val) * 32 + (r 2).val) / 4096 = (r 0).val; omega
  | ⟨1, _⟩ => show (((r 0).val * 128 + (r 1).val) * 32 + (r 2).val) / 32 % 128 = (r 1).val; omega
  | ⟨2, _⟩ => show (((r 0).val * 128 + (r 1).val) * 32 + (r 2).val) % 32 = (r 2).val; omega

/-- The real part after the first factor: 1·a0 - 1·a1 = a0 - a1. -/
theorem first_re (x0 x1 : Arr) : val_main_v21 (F := Ideal) x0 x1 = re1 x0 x1 := by
  funext r
  have e4 : idx_main_v4 (idx_main_v21 r) = r := unit_axis_back r
  have e8 : idx_main_v8 (idx_main_v21 r) = r := unit_axis_back r
  simp only [val_main_v21_apply, val_main_v11_apply, val_main_v6_apply, val_main_v10_apply, val_main_v5_apply,
    val_main_v9_apply, val_main_v3_apply, val_main_v7_apply, val_main_v0_apply, val_main_v2_apply, val_main_cst_apply,
    val_main_cst_1_apply, val_main_v4_apply, val_main_v8_apply, e4, e8, re1, Ideal.ofBits_def, Ideal.ofBits_one_f32,
    Ideal.mulf_def, Ideal.subf_def, one_mul]

/-- The imaginary part after the first factor: 1·a1 + 1·a0 = a0 + a1. -/
theorem first_im (x0 x1 : Arr) : val_main_v22 (F := Ideal) x0 x1 = im1 x0 x1 := by
  funext r
  have e13 : idx_main_v13 (idx_main_v22 r) = r := unit_axis_back r
  have e17 : idx_main_v17 (idx_main_v22 r) = r := unit_axis_back r
  simp only [val_main_v22_apply, val_main_v20_apply, val_main_v15_apply, val_main_v19_apply, val_main_v14_apply,
    val_main_v18_apply, val_main_v12_apply, val_main_v16_apply, val_main_v0_apply, val_main_v2_apply, val_main_cst_apply,
    val_main_cst_1_apply, val_main_v13_apply, val_main_v17_apply, e13, e17, im1, Ideal.ofBits_def, Ideal.ofBits_one_f32,
    Ideal.mulf_def, Ideal.addf_def, one_mul]
  exact add_comm _ _

/-! ## The second factor -/

/-- Position j = p·32 + q of the flattened [.., 32, 32] outer product reads the running product at p. -/
theorem second_slow (l : S8x128x1024.Idx) : idx_main_v23 (idx_main_v25 (idx_main_v45 l)) = slow2 l := by
  have h0 : (l 0).val < 8 := (l 0).isLt
  have h1 : (l 1).val < 128 := (l 1).isLt
  have h2 : (l 2).val < 1024 := (l 2).isLt
  funext a; apply Fin.ext
  match a with
  | ⟨0, _⟩ => show (((l 0).val * 128 + (l 1).val) * 1024 + (l 2).val) / 131072 = (l 0).val; omega
  | ⟨1, _⟩ => show (((l 0).val * 128 + (l 1).val) * 1024 + (l 2).val) / 1024 % 128 = (l 1).val; omega
  | ⟨2, _⟩ => show (((l 0).val * 128 + (l 1).val) * 1024 + (l 2).val) / 32 % 32 = (l 2).val / 32; omega

/-- … and the factor at q. -/
theorem second_fast (l : S8x128x1024.Idx) : idx_main_v24 (idx_main_v26 (idx_main_v45 l)) = fast2 l := by
  have h0 : (l 0).val < 8 := (l 0).isLt
  have h1 : (l 1).val < 128 := (l 1).isLt
  have h2 : (l 2).val < 1024 := (l 2).isLt
  funext a; apply Fin.ext
  match a with
  | ⟨0, _⟩ => show (((l 0).val * 128 + (l 1).val) * 1024 + (l 2).val) / 131072 = (l 0).val; omega
  | ⟨1, _⟩ => show (((l 0).val * 128 + (l 1).val) * 1024 + (l 2).val) / 1024 % 128 = (l 1).val; omega
  | ⟨2, _⟩ => show (((l 0).val * 128 + (l 1).val) * 1024 + (l 2).val) % 32 = (l 2).val % 32; omega

/-- The real part after the second factor. -/
theorem second_re (x0 x1 x2 x3 : Arr) : val_main_v45 (F := Ideal) x0 x1 x2 x3 = re2 x0 x1 x2 x3 := by
  funext l
  have s1 : idx_main_v23 (idx_main_v25 (idx_main_v45 l)) = slow2 l := second_slow l
  have f1 : idx_main_v24 (idx_main_v26 (idx_main_v45 l)) = fast2 l := second_fast l
  have s2 : idx_main_v28 (idx_main_v30 (idx_main_v45 l)) = slow2 l := second_slow l
  have f2 : idx_main_v29 (idx_main_v31 (idx_main_v45 l)) = fast2 l := second_fast l
  simp only [val_main_v45_apply, val_main_v33_apply, val_main_v27_apply, val_main_v32_apply, val_main_v25_apply,
    val_main_v23_apply, val_main_v26_apply, val_main_v24_apply, val_main_v30_apply, val_main_v28_apply, val_main_v31_apply,
    val_main_v29_apply, s1, f1, s2, f2, first_re, first_im, re2]

/-- The imaginary part after the second factor. -/
theorem second_im (x0 x1 x2 x3 : Arr) : val_main_v46 (F := Ideal) x0 x1 x2 x3 = im2 x0 x1 x2 x3 := by
  funext l
  have s1 : idx_main_v34 (idx_main_v36 (idx_main_v46 l)) = slow2 l := second_slow l
  have f1 : idx_main_v35 (idx_main_v37 (idx_main_v46 l)) = fast2 l := second_fast l
  have s2 : idx_main_v39 (idx_main_v41 (idx_main_v46 l)) = slow2 l := second_slow l
  have f2 : idx_main_v40 (idx_main_v42 (idx_main_v46 l)) = fast2 l := second_fast l
  simp only [val_main_v46_apply, val_main_v44_apply, val_main_v38_apply, val_main_v43_apply, val_main_v36_apply,
    val_main_v34_apply, val_main_v37_apply, val_main_v35_apply, val_main_v41_apply, val_main_v39_apply, val_main_v42_apply,
    val_main_v40_apply, s1, f1, s2, f2, first_re, first_im, im2]

/-! ## The third factor -/

/-- Position d = j·32 + r of the flattened [.., 1024, 32] outer product reads the running product at j. -/
theorem third_slow (i : S8x128x32768.Idx) : idx_main_v47 (idx_main_v49 (idx_main_v69 i)) = slow3 i := by
  have h0 : (i 0).val < 8 := (i 0).isLt
  have h1 : (i 1).val < 128 := (i 1).isLt
  have h2 : (i 2).val < 32768 := (i 2).isLt
  funext a; apply Fin.ext
  match a with
  | ⟨0, _⟩ => show (((i 0).val * 128 + (i 1).val) * 32768 + (i 2).val) / 4194304 = (i 0).val; omega
  | ⟨1, _⟩ => show (((i 0).val * 128 + (i 1).val) * 32768 + (i 2).val) / 32768 % 128 = (i 1).val; omega
  | ⟨2, _⟩ => show (((i 0).val * 128 + (i 1).val) * 32768 + (i 2).val) / 32 % 1024 = (i 2).val / 32; omega

/-- … and the factor at r. -/
theorem third_fast (i : S8x128x32768.Idx) : idx_main_v48 (idx_main_v50 (idx_main_v69 i)) = fast3 i := by
  have h0 : (i 0).val < 8 := (i 0).isLt
  have h1 : (i 1).val < 128 := (i 1).isLt
  have h2 : (i 2).val < 32768 := (i 2).isLt
  funext a; apply Fin.ext
  match a with
  | ⟨0, _⟩ => show (((i 0).val * 128 + (i 1).val) * 32768 + (i 2).val) / 4194304 = (i 0).val; omega
  | ⟨1, _⟩ => show (((i 0).val * 128 + (i 1).val) * 32768 + (i 2).val) / 32768 % 128 = (i 1).val; omega
  | ⟨2, _⟩ => show (((i 0).val * 128 + (i 1).val) * 32768 + (i 2).val) % 32 = (i 2).val % 32; omega

/-- The first result of the reference is the real part of the whole chain. -/
theorem third_re (x0 x1 x2 x3 x4 x5 : Arr) : val_main_v69 (F := Ideal) x0 x1 x2 x3 x4 x5 = re3 x0 x1 x2 x3 x4 x5 := by
  funext i
  have s1 : idx_main_v47 (idx_main_v49 (idx_main_v69 i)) = slow3 i := third_slow i
  have f1 : idx_main_v48 (idx_main_v50 (idx_main_v69 i)) = fast3 i := third_fast i
  have s2 : idx_main_v52 (idx_main_v54 (idx_main_v69 i)) = slow3 i := third_slow i
  have f2 : idx_main_v53 (idx_main_v55 (idx_main_v69 i)) = fast3 i := third_fast i
  simp only [val_main_v69_apply, val_main_v57_apply, val_main_v51_apply, val_main_v56_apply, val_main_v49_apply,
    val_main_v47_apply, val_main_v50_apply, val_main_v48_apply, val_main_v54_apply, val_main_v52_apply, val_main_v55_apply,
    val_main_v53_apply, s1, f1, s2, f2, second_re, second_im, re3]

/-- The second result of the reference is the imaginary part of the whole chain. -/
theorem third_im (x0 x1 x2 x3 x4 x5 : Arr) : val_main_v70 (F := Ideal) x0 x1 x2 x3 x4 x5 = im3 x0 x1 x2 x3 x4 x5 := by
  funext i
  have s1 : idx_main_v58 (idx_main_v60 (idx_main_v70 i)) = slow3 i := third_slow i
  have f1 : idx_main_v59 (idx_main_v61 (idx_main_v70 i)) = fast3 i := third_fast i
  have s2 : idx_main_v63 (idx_main_v65 (idx_main_v70 i)) = slow3 i := third_slow i
  have f2 : idx_main_v64 (idx_main_v66 (idx_main_v70 i)) = fast3 i := third_fast i
  simp only [val_main_v70_apply, val_main_v68_apply, val_main_v62_apply, val_main_v67_apply, val_main_v60_apply,
    val_main_v58_apply, val_main_v61_apply, val_main_v59_apply, val_main_v65_apply, val_main_v63_apply, val_main_v66_apply,
    val_main_v64_apply, s1, f1, s2, f2, second_re, second_im, im3]

end Cert.ReferenceIdeal.Stages

end
-- ==== Proof.lean ====
/-
  The kernel and its reference compute one function.

  Both take three complex vectors per batch entry and position (their real and imaginary parts in six arrays) and form the
  chain (1 + i) · u ⊗ v ⊗ w, flattening after every outer product; the results are the real and the imaginary part, each an
  [8, 128, 32768] array (Proof/Chain.lean states them index by index).

  The kernel runs on a grid of 8 × 4 points, each producing the block of 32 positions of one batch entry: its body builds
  the block in 32 chunks (Proof/KernelBody.lean), every point writes back its own block of the chain's arrays and the
  blocks tile them (Proof/KernelBlocks.lean). The reference forms the three outer products on whole arrays
  (Proof/RefStages.lean); it multiplies by an array of ones in the first step, and 1 · x = x and x + y = y + x hold on all
  extended reals, so no use is made of the inputs being finite. Both runs terminate with their results at the same arrays
  and with the arguments unchanged; the kernel at machine words needs only its termination and unchanged arguments.
-/
import proofs.«133994_j54838142435818_2_alg».proof.Defs
import proofs.«133994_j54838142435818_2_alg».proof.Proof.Gen.Kernel
import proofs.«133994_j54838142435818_2_alg».proof.Proof.Gen.Kernel.Skeleton
import proofs.«133994_j54838142435818_2_alg».proof.Proof.Gen.Kernel.Launch
import proofs.«133994_j54838142435818_2_alg».proof.Proof.Gen.Kernel.Points
import proofs.«133994_j54838142435818_2_alg».proof.Proof.Gen.Kernel.Frame
import proofs.«133994_j54838142435818_2_alg».proof.Proof.Gen.KernelIdeal
import proofs.«133994_j54838142435818_2_alg».proof.Proof.Gen.KernelIdeal.Skeleton
import proofs.«133994_j54838142435818_2_alg».proof.Proof.Gen.KernelIdeal.Launch
import proofs.«133994_j54838142435818_2_alg».proof.Proof.Gen.KernelIdeal.Points
import proofs.«133994_j54838142435818_2_alg».proof.Proof.Gen.KernelIdeal.Frame
import proofs.«133994_j54838142435818_2_alg».proof.Proof.Gen.ReferenceIdeal
import proofs.«133994_j54838142435818_2_alg».proof.Proof.Gen.ReferenceIdeal.Run
import proofs.«133994_j54838142435818_2_alg».proof.Proof.Gen.ReferenceIdeal.Read
import proofs.«133994_j54838142435818_2_alg».proof.Proof.Gen.Pre_finite_inputs
import proofs.«133994_j54838142435818_2_alg».proof.Proof.Chain
import proofs.«133994_j54838142435818_2_alg».proof.Proof.KernelBody
import proofs.«133994_j54838142435818_2_alg».proof.Proof.KernelBlocks
import proofs.«133994_j54838142435818_2_alg».proof.Proof.RefStages
import Idealize.ShloMosaic.Adequacy
import Idealize.ShloMosaic.Init

noncomputable section

namespace Cert.Proof

open Idealize.ShloMosaic Idealize.ShloMosaic.TcCoe Idealize.SL.Sem Cert.Chain

/-- The kernel at machine words terminates without a fault and leaves its arguments as they were. -/
theorem frame_kernel : Cert.frame_Kernel := fun m ρ _ => Cert.Kernel.Gen.frame m ρ

/-- So does the kernel read over the extended reals. -/
theorem frame_kernel_ideal : Cert.frame_KernelIdeal := fun m ρ _ => Cert.KernelIdeal.Gen.frame m ρ

/-- The reference terminates with its arguments unchanged: its run with the two results dropped. -/
theorem frame_reference : Cert.frame_ReferenceIdeal := fun m ρ _ =>
  (θ_run Cert.ReferenceIdeal.defs _ _).mono (fun _ h c => (h c).2.2) (Cert.ReferenceIdeal.Value.run (F := Ideal) m ρ)

/-- The idealization rewrote no operation of the kernel. -/
theorem preserves : Cert.preserves_Kernel_KernelIdeal := trivial

/-- Over the extended reals, from memories that agree on the six arguments, the kernel's two result arrays and the
    reference's two results are the real and imaginary parts of the same chain. -/
theorem algebraic : Cert.algebraic_KernelIdeal_ReferenceIdeal := by
  intro m ρ m' ρ' _ hagree
  refine ⟨fun c => re3 (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)),
    fun c => im3 (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)),
    Cert.KernelIdeal.Blocks.run (F := Ideal) m ρ, ?_⟩
  refine (θ_run Cert.ReferenceIdeal.defs _ _).mono (fun _ h c => ⟨(h c).1.trans ?_, (h c).2.1.trans ?_, (h c).2.2⟩)
    (Cert.ReferenceIdeal.Value.run (F := Ideal) m' ρ')
  · rw [Cert.ReferenceIdeal.Read.val_main_v69_eq, Cert.ReferenceIdeal.Stages.third_re, (hagree c).1, (hagree c).2.1,
      (hagree c).2.2.1, (hagree c).2.2.2.1, (hagree c).2.2.2.2.1, (hagree c).2.2.2.2.2]
  · rw [Cert.ReferenceIdeal.Read.val_main_v70_eq, Cert.ReferenceIdeal.Stages.third_im, (hagree c).1, (hagree c).2.1,
      (hagree c).2.2.1, (hagree c).2.2.2.1, (hagree c).2.2.2.2.1, (hagree c).2.2.2.2.2]

theorem claim : Cert.Claim :=
  ⟨Cert.Kernel.Gen.facts, Cert.KernelIdeal.Gen.facts, Cert.ReferenceIdeal.Gen.facts, Cert.Pre_finite_inputs.Gen.facts,
    frame_kernel, frame_kernel_ideal, frame_reference, preserves, algebraic⟩

end Cert.Proof

end
